-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  main_v88

def fn_part4 {F : FTy → Type} [FloatOps F] (main_arg14 : FVec F S1024 .f32) (main_arg15 : FVec F S1024x1024 .f32) (main_arg16 : FVec F S1024x1024 .f32) (main_arg17 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x1024 .f32) (main_arg13 : FVec F S1024x1024 .f32) (main_arg14 : FVec F S1024 .f32) (main_arg15 : FVec F S1024x1024 .f32) (main_arg16 : FVec F S1024x1024 .f32) (main_arg17 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024x1024 .f32) (main_arg17 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024x1024 .f32) (main_arg17 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_arg15 : FVec F S1024x1024 .f32) (main_arg16 : FVec F S1024x1024 .f32) (main_arg17 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x1024 : Shape := ⟨2, ![1, 1024]⟩
abbrev S1x4096 : Shape := ⟨2, ![1, 4096]⟩
abbrev S256x1024 : Shape := ⟨2, ![256, 1024]⟩
abbrev S1024x2048 : Shape := ⟨2, ![1024, 2048]⟩
abbrev S256x2048 : Shape := ⟨2, ![256, 2048]⟩
abbrev S1x2048 : Shape := ⟨2, ![1, 2048]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S1024x4096, .f32⟩
  | .hbm, ⟨19, _⟩ => ⟨S1024x4096, .f32⟩
  | .hbm, ⟨20, _⟩ => ⟨S4096, .f32⟩
  | .hbm, ⟨21, _⟩ => ⟨S1024x1024, .bf16⟩
  | .hbm, ⟨22, _⟩ => ⟨S1024x1024, .bf16⟩
  | .hbm, ⟨23, _⟩ => ⟨S1024x4096, .bf16⟩
  | .hbm, ⟨24, _⟩ => ⟨S1024x4096, .bf16⟩
  | .hbm, ⟨25, _⟩ => ⟨S1x1024, .f32⟩
  | .hbm, ⟨26, _⟩ => ⟨S1x4096, .f32⟩
  | .hbm, ⟨27, _⟩ => ⟨S8192x1024, .bf16⟩
  | .hbm, ⟨28, _⟩ => ⟨S8192x1024, .f32⟩
  | .hbm, ⟨29, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x4096, .bf16⟩
  | .local _ .vmem, ⟨10, _⟩ => ⟨S1024x4096, .bf16⟩
  | .local _ .vmem, ⟨11, _⟩ => ⟨S1x4096, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bitsLt_bf16_f32 : FTy.bits .bf16 < FTy.bits .f32
  shapeCasts_S1024_S1x1024 : S1024.ShapeCasts S1x1024
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x2048_0_0 : ∀ a, (![0, 0] : Fin 2 → Nat) a + S1024x2048.size a ≤ S1024x4096.size a
  h_S1024x2048 : 0 < S1024x2048.numel
  shapeCasts_S1024x2048_S1024x2048 : S1024x2048.ShapeCasts S1024x2048
  inb_S1x4096_S1x2048_0_0 : ∀ a, (![0, 0] : Fin 2 → Nat) a + S1x2048.size a ≤ S1x4096.size a
  h_S1x2048 : 0 < S1x2048.numel
  shapeCasts_S1x2048_S1x2048 : S1x2048.ShapeCasts S1x2048
  broadcasts_S1x2048_S256x2048 : S1x2048.Broadcasts S256x2048
  slices_S256x2048_o0_0_S256x1024 : S256x2048.Slices ![0, 0] S256x1024
  slices_S256x2048_o0_1024_S256x1024 : S256x2048.Slices ![0, 1024] S256x1024
  inb_S1024x4096_S1024x2048_0_2048 : ∀ a, (![0, 2048] : Fin 2 → Nat) a + S1024x2048.size a ≤ S1024x4096.size a
  inb_S1x4096_S1x2048_0_2048 : ∀ a, (![0, 2048] : Fin 2 → Nat) a + S1x2048.size a ≤ S1x4096.size a
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .bf16 = 32 ∨ (Rect.block (s := S8192x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x4096.size a ≤ S1024x4096.size a
  hwx0_6 : ∀ i : grid0.Coords, EltTy.bits .bf16 = 32 ∨ (Rect.block (s := S1024x4096) S1024x4096.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1024x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x4096, .f32⟩
  | .hbm, ⟨26, _⟩ => ⟨S1024x4096, .f32⟩
  | .hbm, ⟨27, _⟩ => ⟨S4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_cst_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_3 : Ref sig .tc := ⟨.hbm, 55, rfl⟩
abbrev main_v33 : Ref sig .tc := ⟨.hbm, 56, rfl⟩
abbrev main_v34 : Ref sig .tc := ⟨.hbm, 57, rfl⟩
abbrev main_cst_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  bcast_S_S8192x1024 : S_.BroadcastsInDim S8192x1024 (![] : Fin 0 → Fin S8192x1024.rank)
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  dot_S8192x1024_S1024x1024_S8192x1024_1_0_0_1_n_n_wf : DotDims.WF S8192x1024 S1024x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.BitsEntry.lean ====
/-
  The program up to its one region, and what the region finds.

  Before the region the host joins the four gates' weight matrices (and bias vectors) side by side, rounds the matmul
  operands to bf16 and adds a unit axis to the two bias vectors: ten operations, each writing a buffer of its own, none an
  argument. So on entering the region every argument array still holds its launch contents, and the contents of
  every buffer there are the fold `entry` of those ten operations over the launch memory. A window's block at a grid
  point is that array read through the block's rectangle; an input window's staging buffer holds exactly that block at
  every point, whether the pipeline fetched it there (the three row-blocked inputs) or only at the first point (the six
  weight and bias windows, whose block index never moves). Last, the post of a run of the region read back at the
  eighteen arguments: two of them are input windows' arrays, which the pipeline only ever reads, and the others
  bypass the region.
-/
import proofs.«111014_j13288628814422_2_alg».proof.Proof.Gen.Kernel.Launch
import proofs.«111014_j13288628814422_2_alg».proof.Proof.Gen.Kernel.Skeleton
import proofs.«111014_j13288628814422_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffers after the ten host operations that precede the region. -/
abbrev entry (c : Dev nD) (b : Ref sig .tc) : Buf (Elt F) ((c : Thread nD τ).loc b) :=
  StableHlo.after hostOps0 (fun b => m (c, b)) b

/-- None of the ten allocates. -/
theorem prefix_allocates_nothing : (hostOps0 : List (HloOp τ sig (Elt F))).Forall fun op => op.fresh = ∅ := by
  simp only [List.Forall]; repeat' constructor

/-- The program is the ten host operations followed by the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_allocates_nothing main_chain

/-- The ten operations write the ten intermediate buffers and nothing else. -/
theorem prefix_writes : (hostOps0 : List (HloOp τ sig (Elt F))).Forall fun op =>
    op.writes ⊆ (([main_v0, main_v1, main_v2, main_v3, main_v4, main_v5, main_v6, main_v7, main_v8, main_v9] : List (Ref sig .tc)).map
      (Proc.devRef (τ := τ) .tc)).toFinset := by
  simp only [hostOps0, List.Forall, StableHlo.nary_writes, StableHlo.unary_writes, StableHlo.reshape_writes]
  refine ⟨?_, ?_, ?_, ?_, ?_, ?_, ?_, ?_, ?_, ?_⟩ <;> (rw [Finset.singleton_subset_iff]; simp only [List.map, List.toFinset_cons, List.toFinset_nil, Finset.mem_insert, Finset.mem_singleton, true_or, or_true])

/-- A buffer that is none of the ten intermediates is found by the region as launched. -/
theorem entry_of_not_intermediate (c : Dev nD) (r : Ref sig .tc)
    (hr : r ∉ ([main_v0, main_v1, main_v2, main_v3, main_v4, main_v5, main_v6, main_v7, main_v8, main_v9] : List (Ref sig .tc))) :
    entry m c r = m ((c : Thread nD τ).loc r) :=
  StableHlo.after_of_writes_sub hostOps0 _ prefix_writes hr

theorem entry_arg0 (c : Dev nD) : entry m c main_arg0 = m ((c : Thread nD τ).loc main_arg0) := entry_of_not_intermediate m c _ (by decide)
theorem entry_arg1 (c : Dev nD) : entry m c main_arg1 = m ((c : Thread nD τ).loc main_arg1) := entry_of_not_intermediate m c _ (by decide)
theorem entry_arg2 (c : Dev nD) : entry m c main_arg2 = m ((c : Thread nD τ).loc main_arg2) := entry_of_not_intermediate m c _ (by decide)
theorem entry_arg3 (c : Dev nD) : entry m c main_arg3 = m ((c : Thread nD τ).loc main_arg3) := entry_of_not_intermediate m c _ (by decide)
theorem entry_arg4 (c : Dev nD) : entry m c main_arg4 = m ((c : Thread nD τ).loc main_arg4) := entry_of_not_intermediate m c _ (by decide)
theorem entry_arg5 (c : Dev nD) : entry m c main_arg5 = m ((c : Thread nD τ).loc main_arg5) := entry_of_not_intermediate m c _ (by decide)
theorem entry_arg6 (c : Dev nD) : entry m c main_arg6 = m ((c : Thread nD τ).loc main_arg6) := entry_of_not_intermediate m c _ (by decide)
theorem entry_arg7 (c : Dev nD) : entry m c main_arg7 = m ((c : Thread nD τ).loc main_arg7) := entry_of_not_intermediate m c _ (by decide)
theorem entry_arg8 (c : Dev nD) : entry m c main_arg8 = m ((c : Thread nD τ).loc main_arg8) := entry_of_not_intermediate m c _ (by decide)
theorem entry_arg9 (c : Dev nD) : entry m c main_arg9 = m ((c : Thread nD τ).loc main_arg9) := entry_of_not_intermediate m c _ (by decide)
theorem entry_arg10 (c : Dev nD) : entry m c main_arg10 = m ((c : Thread nD τ).loc main_arg10) := entry_of_not_intermediate m c _ (by decide)
theorem entry_arg11 (c : Dev nD) : entry m c main_arg11 = m ((c : Thread nD τ).loc main_arg11) := entry_of_not_intermediate m c _ (by decide)
theorem entry_arg12 (c : Dev nD) : entry m c main_arg12 = m ((c : Thread nD τ).loc main_arg12) := entry_of_not_intermediate m c _ (by decide)
theorem entry_arg13 (c : Dev nD) : entry m c main_arg13 = m ((c : Thread nD τ).loc main_arg13) := entry_of_not_intermediate m c _ (by decide)
theorem entry_arg14 (c : Dev nD) : entry m c main_arg14 = m ((c : Thread nD τ).loc main_arg14) := entry_of_not_intermediate m c _ (by decide)
theorem entry_arg15 (c : Dev nD) : entry m c main_arg15 = m ((c : Thread nD τ).loc main_arg15) := entry_of_not_intermediate m c _ (by decide)
theorem entry_arg16 (c : Dev nD) : entry m c main_arg16 = m ((c : Thread nD τ).loc main_arg16) := entry_of_not_intermediate m c _ (by decide)
theorem entry_arg17 (c : Dev nD) : entry m c main_arg17 = m ((c : Thread nD τ).loc main_arg17) := entry_of_not_intermediate m c _ (by decide)

/-! ## Blocks -/

/-- Window `w`'s block at grid point `t`: its array, as the region finds it, read through the block's rectangle. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point: where the pipeline does not fetch, the
    block index has not moved since the last fetch and the body leaves the buffer as it found it. -/
theorem found0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point: where the pipeline does not fetch, the
    block index has not moved since the last fetch and the body leaves the buffer as it found it. -/
theorem found1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point: where the pipeline does not fetch, the
    block index has not moved since the last fetch and the body leaves the buffer as it found it. -/
theorem found2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point: where the pipeline does not fetch, the
    block index has not moved since the last fetch and the body leaves the buffer as it found it. -/
theorem found3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point: where the pipeline does not fetch, the
    block index has not moved since the last fetch and the body leaves the buffer as it found it. -/
theorem found4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point: where the pipeline does not fetch, the
    block index has not moved since the last fetch and the body leaves the buffer as it found it. -/
theorem found5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point: where the pipeline does not fetch, the
    block index has not moved since the last fetch and the body leaves the buffer as it found it. -/
theorem found6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point: where the pipeline does not fetch, the
    block index has not moved since the last fetch and the body leaves the buffer as it found it. -/
theorem found7 {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's current staging buffer holds its block at every point: where the pipeline does not fetch, the
    block index has not moved since the last fetch and the body leaves the buffer as it found it. -/
theorem found8 {c : Dev nD} (dat : Dat τ (Elt F) Unit ℕ (UR sig nD τ) ℕ cfg0 c) (hA : dat.A 8 = entry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after a run of the region -/

/-- From a run whose final state has every window's array at what the pipeline's proof data computes and every bypassing
    buffer as the region found it, the eighteen argument arrays end at their launch contents: `main_arg0` and
    `main_arg2` are input windows' arrays (an input window's array is only ever read), the other sixteen bypass the region. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (entry_arg0 m c))),
      ((h c).2 main_arg1 (Pipeline.mem_restRefs_of main_arg1 (by decide) (by decide))).trans (entry_arg1 m c),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c)⟩) h

end Cert.Kernel.Region

end
-- ==== Proof.BitsBody.lean ====
/-
  One run of the kernel body on whole staging buffers.

  The body loads its nine input blocks — the three row blocks whole, the two square weight matrices and the first bias row
  whole, and of each joined gate array first its left half (columns 0–2047) and later its right half (columns 2048–4095) —
  and stores two whole output blocks: the new hidden block and the new cell block, each ONE store that covers its buffer.
  So after the body each output buffer holds its one stored value (`hiddenOut`, `cellOut`: the skeleton's payloads of
  the loaded pieces), whatever it held before (the body also loads each output buffer once and never uses the value), and the
  inputs' buffers are as they were.
-/
import proofs.«111014_j13288628814422_2_alg».proof.Proof.BitsEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole row block. -/
abbrev rRows : Rect S256x1024 := Rect.unit (s := S256x1024) ![0, 0] S256x1024.size inb_S256x1024_S256x1024_0_0
/-- A whole square weight matrix. -/
abbrev rSquare : Rect S1024x1024 := Rect.unit (s := S1024x1024) ![0, 0] S1024x1024.size inb_S1024x1024_S1024x1024_0_0
/-- The whole first bias row. -/
abbrev rBias : Rect S1x1024 := Rect.unit (s := S1x1024) ![0, 0] S1x1024.size inb_S1x1024_S1x1024_0_0
/-- The left and the right half of a joined gate matrix. -/
abbrev rLeft : Rect S1024x4096 := Rect.unit (s := S1024x4096) ![0, 0] S1024x2048.size inb_S1024x4096_S1024x2048_0_0
abbrev rRight : Rect S1024x4096 := Rect.unit (s := S1024x4096) ![0, 2048] S1024x2048.size inb_S1024x4096_S1024x2048_0_2048
/-- The left and the right half of the joined gate bias row. -/
abbrev rBiasLeft : Rect S1x4096 := Rect.unit (s := S1x4096) ![0, 0] S1x2048.size inb_S1x4096_S1x2048_0_0
abbrev rBiasRight : Rect S1x4096 := Rect.unit (s := S1x4096) ![0, 2048] S1x2048.size inb_S1x4096_S1x2048_0_2048

/-! ## What the body leaves in the two output buffers -/

/-- The new hidden block: the body's one store into the first output buffer, over the input blocks. -/
def hiddenOut (x0 : Vec F S256x1024 .f32) (x1 : Vec F S256x1024 .bf16) (x2 : Vec F S256x1024 .f32) (x3 x4 : Vec F S1024x1024 .bf16)
    (x5 : Vec F S1x1024 .f32) (x6 x7 : Vec F S1024x4096 .bf16) (x8 : Vec F S1x4096 .f32) : Vec F S256x1024 .f32 :=
  View.canon [⟨rRows, k0_pay3 (k0_pay4 (View.ld x1 rRows)) (View.ld x2 rRows)
    (k0_pay5 (View.ld x0 rRows) (View.ld x1 rRows) (View.ld x3 rSquare) (View.ld x4 rSquare) (View.ld x5 rBias))
    (k0_pay7 (View.ld x0 rRows) (View.ld x1 rRows) (View.ld x3 rSquare) (View.ld x4 rSquare) (View.ld x5 rBias) (View.ld x6 rLeft) (View.ld x7 rLeft) (View.ld x8 rBiasLeft))
    (k0_pay8 (View.ld x0 rRows) (View.ld x1 rRows) (View.ld x3 rSquare) (View.ld x4 rSquare) (View.ld x5 rBias) (View.ld x6 rLeft) (View.ld x7 rLeft) (View.ld x8 rBiasLeft))
    (k0_pay9 (View.ld x6 rRight)) (View.ld x7 rRight) (View.ld x8 rBiasRight)⟩]

/-- The new cell block: the body's one store into the second output buffer. -/
def cellOut (x0 : Vec F S256x1024 .f32) (x1 : Vec F S256x1024 .bf16) (x2 : Vec F S256x1024 .f32) (x3 x4 : Vec F S1024x1024 .bf16)
    (x5 : Vec F S1x1024 .f32) (x6 x7 : Vec F S1024x4096 .bf16) (x8 : Vec F S1x4096 .f32) : Vec F S256x1024 .f32 :=
  View.canon [⟨rRows, k0_pay2 (k0_pay4 (View.ld x1 rRows)) (View.ld x2 rRows)
    (k0_pay5 (View.ld x0 rRows) (View.ld x1 rRows) (View.ld x3 rSquare) (View.ld x4 rSquare) (View.ld x5 rBias))
    (k0_pay7 (View.ld x0 rRows) (View.ld x1 rRows) (View.ld x3 rSquare) (View.ld x4 rSquare) (View.ld x5 rBias) (View.ld x6 rLeft) (View.ld x7 rLeft) (View.ld x8 rBiasLeft))
    (k0_pay8 (View.ld x0 rRows) (View.ld x1 rRows) (View.ld x3 rSquare) (View.ld x4 rSquare) (View.ld x5 rBias) (View.ld x6 rLeft) (View.ld x7 rLeft) (View.ld x8 rBiasLeft))
    (k0_pay9 (View.ld x6 rRight)) (View.ld x7 rRight) (View.ld x8 rBiasRight)⟩]

/-- One whole-block store covers the buffer. -/
theorem whole_store_covers (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- On whole staging buffers — the nine inputs' at contents `x0 … x8`, the two outputs' at anything — the body runs to its
    continuation with the inputs' buffers as they were and the outputs' at `hiddenOut` and `cellOut` of the inputs. -/
theorem body_triple (c : Dev nD) (E : Set ℕ) (i : grid0.Coords)
    (arg1 : Memref sig .tc .vmem S256x1024 .f32) (harg1 : arg1.IsWhole) (arg2 : Memref sig .tc .vmem S256x1024 .bf16) (harg2 : arg2.IsWhole)
    (arg3 : Memref sig .tc .vmem S256x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1024x4096 .bf16) (harg7 : arg7.IsWhole) (arg8 : Memref sig .tc .vmem S1024x4096 .bf16) (harg8 : arg8.IsWhole)
    (arg9 : Memref sig .tc .vmem S1x4096 .f32) (harg9 : arg9.IsWhole) (arg10 : Memref sig .tc .vmem S256x1024 .f32) (harg10 : arg10.IsWhole)
    (arg11 : Memref sig .tc .vmem S256x1024 .f32) (harg11 : arg11.IsWhole)
    (x0 : Vec F S256x1024 .f32) (x1 : Vec F S256x1024 .bf16) (x2 : Vec F S256x1024 .f32) (x3 x4 : Vec F S1024x1024 .bf16)
    (x5 : Vec F S1x1024 .f32) (x6 x7 : Vec F S1024x4096 .bf16) (x8 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (hiddenOut x0 x1 x2 x3 x4 x5 x6 x7 x8)
            ∗ owns (c : Thread nD τ) arg11 fullShare (cellOut x0 x1 x2 x3 x4 x5 x6 x7 x8)) -∗ K ⟨⟩))
      ⊢ wp frame (wpE (defs₀ (F := F)) Variants.none c none) E
          (cc0__mlstm_kernel i arg1 harg1 arg2 harg2 arg3 harg3 arg4 harg4 arg5 harg5 arg6 harg6 arg7 harg7 arg8 harg8 arg9 harg9 arg10 harg10 arg11 harg11) K := by
  simp only [cc0__mlstm_kernel_eq_skeleton]; unfold cc0__mlstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (whole_store_covers _)
  iexists _; isplitr
  swap; · iexact H10
  ipureintro
  exact View.read_writes_eq_canon _ _ _ (whole_store_covers _)

end Cert.Kernel.Region

end
-- ==== Proof.BitsRegion.lean ====
/-
  The region's run.

  The pipeline's proof data on a core: every window's array as the region finds it; after the body at a grid point each
  input's staging buffer at its block (the body only reads it) and the two outputs' at the new hidden block and the new
  cell block of that point's input blocks; between points nothing is kept but the core's untouched scratch and
  generator state, and no one is signalled. With the body's triple this gives the body obligation at every point, hence a run of the whole
  program: it ends, nothing faults, every window's array ends at what the proof data computes and every other buffer
  as the region found it — in particular the arguments are unchanged.
-/
import proofs.«111014_j13288628814422_2_alg».proof.Proof.BitsBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What grid point `t` leaves in the first output's buffer, and in the second's: the body's stores over that point's blocks. -/
abbrev hiddenAt (c : Dev nD) (t : Fin cfg0.N) : Vec F S256x1024 .f32 :=
  hiddenOut (blockAt m c 0 t) (blockAt m c 1 t) (blockAt m c 2 t) (blockAt m c 3 t) (blockAt m c 4 t) (blockAt m c 5 t) (blockAt m c 6 t) (blockAt m c 7 t) (blockAt m c 8 t)
abbrev cellAt (c : Dev nD) (t : Fin cfg0.N) : Vec F S256x1024 .f32 :=
  cellOut (blockAt m c 0 t) (blockAt m c 1 t) (blockAt m c 2 t) (blockAt m c 3 t) (blockAt m c 4 t) (blockAt m c 5 t) (blockAt m c 6 t) (blockAt m c 7 t) (blockAt m c 8 t)

def data (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => hiddenAt m c t
    | ⟨10, _⟩ => cellAt m c t
  Φ _ := Pipeline.ΦA spec0 c
  q _ := fullShare
  owed _ := 0

theorem data_A (c : Dev nD) (w : Fin cfg0.W) : (data m 0 c).A w = entry m c (Pipeline.arrRef spec0 w) := by
  dsimp only [data]

theorem after0 (c : Dev nD) (t : Fin cfg0.N) : (data m 0 c).after 0 t = blockAt m c 0 t := by dsimp only [data]
theorem after1 (c : Dev nD) (t : Fin cfg0.N) : (data m 0 c).after 1 t = blockAt m c 1 t := by dsimp only [data]
theorem after2 (c : Dev nD) (t : Fin cfg0.N) : (data m 0 c).after 2 t = blockAt m c 2 t := by dsimp only [data]
theorem after3 (c : Dev nD) (t : Fin cfg0.N) : (data m 0 c).after 3 t = blockAt m c 3 t := by dsimp only [data]
theorem after4 (c : Dev nD) (t : Fin cfg0.N) : (data m 0 c).after 4 t = blockAt m c 4 t := by dsimp only [data]
theorem after5 (c : Dev nD) (t : Fin cfg0.N) : (data m 0 c).after 5 t = blockAt m c 5 t := by dsimp only [data]
theorem after6 (c : Dev nD) (t : Fin cfg0.N) : (data m 0 c).after 6 t = blockAt m c 6 t := by dsimp only [data]
theorem after7 (c : Dev nD) (t : Fin cfg0.N) : (data m 0 c).after 7 t = blockAt m c 7 t := by dsimp only [data]
theorem after8 (c : Dev nD) (t : Fin cfg0.N) : (data m 0 c).after 8 t = blockAt m c 8 t := by dsimp only [data]
theorem after9 (c : Dev nD) (t : Fin cfg0.N) : (data m 0 c).after 9 t = hiddenAt m c t := by dsimp only [data]
theorem after10 (c : Dev nD) (t : Fin cfg0.N) : (data m 0 c).after 10 t = cellAt m c t := by dsimp only [data]

theorem before0 (c : Dev nD) (t : Fin cfg0.N) (d) : (data m 0 c).before 0 t d = blockAt m c 0 t :=
  found0 m (data m 0 c) (data_A m c 0) (after0 m c) t d
theorem before1 (c : Dev nD) (t : Fin cfg0.N) (d) : (data m 0 c).before 1 t d = blockAt m c 1 t :=
  found1 m (data m 0 c) (data_A m c 1) (after1 m c) t d
theorem before2 (c : Dev nD) (t : Fin cfg0.N) (d) : (data m 0 c).before 2 t d = blockAt m c 2 t :=
  found2 m (data m 0 c) (data_A m c 2) (after2 m c) t d
theorem before3 (c : Dev nD) (t : Fin cfg0.N) (d) : (data m 0 c).before 3 t d = blockAt m c 3 t :=
  found3 m (data m 0 c) (data_A m c 3) (after3 m c) t d
theorem before4 (c : Dev nD) (t : Fin cfg0.N) (d) : (data m 0 c).before 4 t d = blockAt m c 4 t :=
  found4 m (data m 0 c) (data_A m c 4) (after4 m c) t d
theorem before5 (c : Dev nD) (t : Fin cfg0.N) (d) : (data m 0 c).before 5 t d = blockAt m c 5 t :=
  found5 m (data m 0 c) (data_A m c 5) (after5 m c) t d
theorem before6 (c : Dev nD) (t : Fin cfg0.N) (d) : (data m 0 c).before 6 t d = blockAt m c 6 t :=
  found6 m (data m 0 c) (data_A m c 6) (after6 m c) t d
theorem before7 (c : Dev nD) (t : Fin cfg0.N) (d) : (data m 0 c).before 7 t d = blockAt m c 7 t :=
  found7 m (data m 0 c) (data_A m c 7) (after7 m c) t d
theorem before8 (c : Dev nD) (t : Fin cfg0.N) (d) : (data m 0 c).before 8 t d = blockAt m c 8 t :=
  found8 m (data m 0 c) (data_A m c 8) (after8 m c) t d

/-! ## The body obligation -/

/-- What the pipeline calls the body with at point `t`, the windows one by one, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d)))

/-- and what it gets back. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t)
    ∗ owns (c : Thread nD τ) (st0_10 t) fullShare ((data m 0 c).after 10 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (data m 0 c).Φ t.succ = (data m 0 c).Φ t.castSucc from rfl,
    show (data m 0 c).owesAt () t.succ = (data m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ (grid0.coords t) _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (data (F := F) m 0 c) (defs₀ (F := F)) Variants.none () Set.univ := fun t => by
  rw [bigSep_W0, bigSep_W0]
  exact body_at_point m c t

/-! ## The run -/

set_option backward.isDefEq.respectTransparency.types false in
/-- Every weakly fair execution of the program from a memory with zero counters terminates without a fault, each window's
    array at the end what the proof data computes and every bypassing buffer as the region found it. -/
theorem run_region : θ_run defs (onTc (τ := τ) (main (F := F))) (s₀ m ρ) (Pipeline.FramePost cfgs (data m) 0 (entry m)) :=
  Pipeline.θ_run_frame cfgs (data m) (0 : Fin 1) launch0 defs₀ Variants.none m ρ main
    (hbody := fun c => (body_obligation m c).loose) (hshare := fun c => (data m 0 c).share_full fun _ => rfl)
    (howed := fun _ _ => rfl) (V := entry m) (hmain := main_to_region m Variants.none) (hA := data_A m) (hΦ := fun _ _ => rfl)

/-- The program runs and leaves its eighteen arguments unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  args_kept_of m ρ (data m) (data_A m) (run_region m ρ)

end Cert.Kernel.Region

end
-- ==== Proof.IdealEntry.lean ====
/-
  The program up to its one region, and what the region finds.

  Before the region the host joins the four gates' weight matrices (and bias vectors) side by side, rounds the matmul
  operands to bf16 and adds a unit axis to the two bias vectors: ten operations, each writing a buffer of its own, none an
  argument. So on entering the region every argument array still holds its launch contents, and the contents of
  every buffer there are the fold `entry` of those ten operations over the launch memory. A window's block at a grid
  point is that array read through the block's rectangle; an input window's staging buffer holds exactly that block at
  every point, whether the pipeline fetched it there (the three row-blocked inputs) or only at the first point (the six
  weight and bias windows, whose block index never moves). Last, the post of a run of the region read back at the
  eighteen arguments: two of them are input windows' arrays, which the pipeline only ever reads, and the others
  bypass the region.
-/
import proofs.«111014_j13288628814422_2_alg».proof.Proof.Gen.KernelIdeal.Launch
import proofs.«111014_j13288628814422_2_alg».proof.Proof.Gen.KernelIdeal.Skeleton
import proofs.«111014_j13288628814422_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Core `c`'s buffers after the ten host operations that precede the region. -/
abbrev entry (c : Dev nD) (b : Ref sig .tc) : Buf (Elt F) ((c : Thread nD τ).loc b) :=
  StableHlo.after hostOps0 (fun b => m (c, b)) b

/-- None of the ten allocates. -/
theorem prefix_allocates_nothing : (hostOps0 : List (HloOp τ sig (Elt F))).Forall fun op => op.fresh = ∅ := by
  simp only [List.Forall]; repeat' constructor

/-- The program is the ten host operations followed by the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_allocates_nothing main_chain

/-- The ten operations write the ten intermediate buffers and nothing else. -/
theorem prefix_writes : (hostOps0 : List (HloOp τ sig (Elt F))).Forall fun op =>
    op.writes ⊆ (([main_v0, main_v1, main_v2, main_v3, main_v4, main_v5, main_v6, main_v7, main_v8, main_v9] : List (Ref sig .tc)).map
      (Proc.devRef (τ := τ) .tc)).toFinset := by
  simp only [hostOps0, List.Forall, StableHlo.nary_writes, StableHlo.unary_writes, StableHlo.reshape_writes]
  refine ⟨?_, ?_, ?_, ?_, ?_, ?_, ?_, ?_, ?_, ?_⟩ <;> (rw [Finset.singleton_subset_iff]; simp only [List.map, List.toFinset_cons, List.toFinset_nil, Finset.mem_insert, Finset.mem_singleton, true_or, or_true])

/-- A buffer that is none of the ten intermediates is found by the region as launched. -/
theorem entry_of_not_intermediate (c : Dev nD) (r : Ref sig .tc)
    (hr : r ∉ ([main_v0, main_v1, main_v2, main_v3, main_v4, main_v5, main_v6, main_v7, main_v8, main_v9] : List (Ref sig .tc))) :
    entry m c r = m ((c : Thread nD τ).loc r) :=
  StableHlo.after_of_writes_sub hostOps0 _ prefix_writes hr

theorem entry_arg0 (c : Dev nD) : entry m c main_arg0 = m ((c : Thread nD τ).loc main_arg0) := entry_of_not_intermediate m c _ (by decide)
theorem entry_arg1 (c : Dev nD) : entry m c main_arg1 = m ((c : Thread nD τ).loc main_arg1) := entry_of_not_intermediate m c _ (by decide)
theorem entry_arg2 (c : Dev nD) : entry m c main_arg2 = m ((c : Thread nD τ).loc main_arg2) := entry_of_not_intermediate m c _ (by decide)
theorem entry_arg3 (c : Dev nD) : entry m c main_arg3 = m ((c : Thread nD τ).loc main_arg3) := entry_of_not_intermediate m c _ (by decide)
theorem entry_arg4 (c : Dev nD) : entry m c main_arg4 = m ((c : Thread nD τ).loc main_arg4) := entry_of_not_intermediate m c _ (by decide)
theorem entry_arg5 (c : Dev nD) : entry m c main_arg5 = m ((c : Thread nD τ).loc main_arg5) := entry_of_not_intermediate m c _ (by decide)
theorem entry_arg6 (c : Dev nD) : entry m c main_arg6 = m ((c : Thread nD τ).loc main_arg6) := entry_of_not_intermediate m c _ (by decide)
theorem entry_arg7 (c : Dev nD) : entry m c main_arg7 = m ((c : Thread nD τ).loc main_arg7) := entry_of_not_intermediate m c _ (by decide)
theorem entry_arg8 (c : Dev nD) : entry m c main_arg8 = m ((c : Thread nD τ).loc main_arg8) := entry_of_not_intermediate m c _ (by decide)
theorem entry_arg9 (c : Dev nD) : entry m c main_arg9 = m ((c : Thread nD τ).loc main_arg9) := entry_of_not_intermediate m c _ (by decide)
theorem entry_arg10 (c : Dev nD) : entry m c main_arg10 = m ((c : Thread nD τ).loc main_arg10) := entry_of_not_intermediate m c _ (by decide)
theorem entry_arg11 (c : Dev nD) : entry m c main_arg11 = m ((c : Thread nD τ).loc main_arg11) := entry_of_not_intermediate m c _ (by decide)
theorem entry_arg12 (c : Dev nD) : entry m c main_arg12 = m ((c : Thread nD τ).loc main_arg12) := entry_of_not_intermediate m c _ (by decide)
theorem entry_arg13 (c : Dev nD) : entry m c main_arg13 = m ((c : Thread nD τ).loc main_arg13) := entry_of_not_intermediate m c _ (by decide)
theorem entry_arg14 (c : Dev nD) : entry m c main_arg14 = m ((c : Thread nD τ).loc main_arg14) := entry_of_not_intermediate m c _ (by decide)
theorem entry_arg15 (c : Dev nD) : entry m c main_arg15 = m ((c : Thread nD τ).loc main_arg15) := entry_of_not_intermediate m c _ (by decide)
theorem entry_arg16 (c : Dev nD) : entry m c main_arg16 = m ((c : Thread nD τ).loc main_arg16) := entry_of_not_intermediate m c _ (by decide)
theorem entry_arg17 (c : Dev nD) : entry m c main_arg17 = m ((c : Thread nD τ).loc main_arg17) := entry_of_not_intermediate m c _ (by decide)

/-! ## Blocks -/

/-- Window `w`'s block at grid point `t`: its array, as the region finds it, read through the block's rectangle. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point: where the pipeline does not fetch, the
    block index has not moved since the last fetch and the body leaves the buffer as it found it. -/
theorem found0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point: where the pipeline does not fetch, the
    block index has not moved since the last fetch and the body leaves the buffer as it found it. -/
theorem found1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point: where the pipeline does not fetch, the
    block index has not moved since the last fetch and the body leaves the buffer as it found it. -/
theorem found2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point: where the pipeline does not fetch, the
    block index has not moved since the last fetch and the body leaves the buffer as it found it. -/
theorem found3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point: where the pipeline does not fetch, the
    block index has not moved since the last fetch and the body leaves the buffer as it found it. -/
theorem found4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point: where the pipeline does not fetch, the
    block index has not moved since the last fetch and the body leaves the buffer as it found it. -/
theorem found5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current staging buffer holds its block at every point: where the pipeline does not fetch, the
    block index has not moved since the last fetch and the body leaves the buffer as it found it. -/
theorem found6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current staging buffer holds its block at every point: where the pipeline does not fetch, the
    block index has not moved since the last fetch and the body leaves the buffer as it found it. -/
theorem found7 {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)
/-- Input window 8's current staging buffer holds its block at every point: where the pipeline does not fetch, the
    block index has not moved since the last fetch and the body leaves the buffer as it found it. -/
theorem found8 {c : Dev nD} (dat : Dat τ (Elt F) Unit ℕ (UR sig nD τ) ℕ cfg0 c) (hA : dat.A 8 = entry m c (Pipeline.arrRef spec0 8))
    (hafter : ∀ t, dat.after 8 t = blockAt m c 8 t) (t : Fin cfg0.N) (d) : dat.before 8 t d = blockAt m c 8 t :=
  (dat.before_in_eq_fetched 8 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after a run of the region -/

/-- From a run whose final state has every window's array at what the pipeline's proof data computes and every bypassing
    buffer as the region found it, the eighteen argument arrays end at their launch contents: `main_arg0` and
    `main_arg2` are input windows' arrays (an input window's array is only ever read), the other sixteen bypass the region. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (entry_arg0 m c))),
      ((h c).2 main_arg1 (Pipeline.mem_restRefs_of main_arg1 (by decide) (by decide))).trans (entry_arg1 m c),
      ((h c).1 2).trans (((dats 0 c).arrAt_in 2 rfl _).trans ((hA c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c)⟩) h

end Cert.KernelIdeal.Region

end
-- ==== Proof.IdealBody.lean ====
/-
  One run of the kernel body on whole staging buffers.

  The body loads its nine input blocks — the three row blocks whole, the two square weight matrices and the first bias row
  whole, and of each joined gate array first its left half (columns 0–2047) and later its right half (columns 2048–4095) —
  and stores two whole output blocks: the new hidden block and the new cell block, each ONE store that covers its buffer.
  So after the body each output buffer holds its one stored value (`hiddenOut`, `cellOut`: the skeleton's payloads of
  the loaded pieces), whatever it held before (the body also loads each output buffer once and never uses the value), and the
  inputs' buffers are as they were.
-/
import proofs.«111014_j13288628814422_2_alg».proof.Proof.IdealEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- A whole row block. -/
abbrev rRows : Rect S256x1024 := Rect.unit (s := S256x1024) ![0, 0] S256x1024.size inb_S256x1024_S256x1024_0_0
/-- A whole square weight matrix. -/
abbrev rSquare : Rect S1024x1024 := Rect.unit (s := S1024x1024) ![0, 0] S1024x1024.size inb_S1024x1024_S1024x1024_0_0
/-- The whole first bias row. -/
abbrev rBias : Rect S1x1024 := Rect.unit (s := S1x1024) ![0, 0] S1x1024.size inb_S1x1024_S1x1024_0_0
/-- The left and the right half of a joined gate matrix. -/
abbrev rLeft : Rect S1024x4096 := Rect.unit (s := S1024x4096) ![0, 0] S1024x2048.size inb_S1024x4096_S1024x2048_0_0
abbrev rRight : Rect S1024x4096 := Rect.unit (s := S1024x4096) ![0, 2048] S1024x2048.size inb_S1024x4096_S1024x2048_0_2048
/-- The left and the right half of the joined gate bias row. -/
abbrev rBiasLeft : Rect S1x4096 := Rect.unit (s := S1x4096) ![0, 0] S1x2048.size inb_S1x4096_S1x2048_0_0
abbrev rBiasRight : Rect S1x4096 := Rect.unit (s := S1x4096) ![0, 2048] S1x2048.size inb_S1x4096_S1x2048_0_2048

/-! ## What the body leaves in the two output buffers -/

/-- The new hidden block: the body's one store into the first output buffer, over the input blocks. -/
def hiddenOut (x0 : Vec F S256x1024 .f32) (x1 : Vec F S256x1024 .bf16) (x2 : Vec F S256x1024 .f32) (x3 x4 : Vec F S1024x1024 .bf16)
    (x5 : Vec F S1x1024 .f32) (x6 x7 : Vec F S1024x4096 .bf16) (x8 : Vec F S1x4096 .f32) : Vec F S256x1024 .f32 :=
  View.canon [⟨rRows, k0_pay3 (k0_pay4 (View.ld x1 rRows)) (View.ld x2 rRows)
    (k0_pay5 (View.ld x0 rRows) (View.ld x1 rRows) (View.ld x3 rSquare) (View.ld x4 rSquare) (View.ld x5 rBias))
    (k0_pay7 (View.ld x0 rRows) (View.ld x1 rRows) (View.ld x3 rSquare) (View.ld x4 rSquare) (View.ld x5 rBias) (View.ld x6 rLeft) (View.ld x7 rLeft) (View.ld x8 rBiasLeft))
    (k0_pay8 (View.ld x0 rRows) (View.ld x1 rRows) (View.ld x3 rSquare) (View.ld x4 rSquare) (View.ld x5 rBias) (View.ld x6 rLeft) (View.ld x7 rLeft) (View.ld x8 rBiasLeft))
    (k0_pay9 (View.ld x6 rRight)) (View.ld x7 rRight) (View.ld x8 rBiasRight)⟩]

/-- The new cell block: the body's one store into the second output buffer. -/
def cellOut (x0 : Vec F S256x1024 .f32) (x1 : Vec F S256x1024 .bf16) (x2 : Vec F S256x1024 .f32) (x3 x4 : Vec F S1024x1024 .bf16)
    (x5 : Vec F S1x1024 .f32) (x6 x7 : Vec F S1024x4096 .bf16) (x8 : Vec F S1x4096 .f32) : Vec F S256x1024 .f32 :=
  View.canon [⟨rRows, k0_pay2 (k0_pay4 (View.ld x1 rRows)) (View.ld x2 rRows)
    (k0_pay5 (View.ld x0 rRows) (View.ld x1 rRows) (View.ld x3 rSquare) (View.ld x4 rSquare) (View.ld x5 rBias))
    (k0_pay7 (View.ld x0 rRows) (View.ld x1 rRows) (View.ld x3 rSquare) (View.ld x4 rSquare) (View.ld x5 rBias) (View.ld x6 rLeft) (View.ld x7 rLeft) (View.ld x8 rBiasLeft))
    (k0_pay8 (View.ld x0 rRows) (View.ld x1 rRows) (View.ld x3 rSquare) (View.ld x4 rSquare) (View.ld x5 rBias) (View.ld x6 rLeft) (View.ld x7 rLeft) (View.ld x8 rBiasLeft))
    (k0_pay9 (View.ld x6 rRight)) (View.ld x7 rRight) (View.ld x8 rBiasRight)⟩]

/-- One whole-block store covers the buffer. -/
theorem whole_store_covers (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- On whole staging buffers — the nine inputs' at contents `x0 … x8`, the two outputs' at anything — the body runs to its
    continuation with the inputs' buffers as they were and the outputs' at `hiddenOut` and `cellOut` of the inputs. -/
theorem body_triple (c : Dev nD) (E : Set ℕ) (i : grid0.Coords)
    (arg1 : Memref sig .tc .vmem S256x1024 .f32) (harg1 : arg1.IsWhole) (arg2 : Memref sig .tc .vmem S256x1024 .bf16) (harg2 : arg2.IsWhole)
    (arg3 : Memref sig .tc .vmem S256x1024 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1x1024 .f32) (harg6 : arg6.IsWhole)
    (arg7 : Memref sig .tc .vmem S1024x4096 .bf16) (harg7 : arg7.IsWhole) (arg8 : Memref sig .tc .vmem S1024x4096 .bf16) (harg8 : arg8.IsWhole)
    (arg9 : Memref sig .tc .vmem S1x4096 .f32) (harg9 : arg9.IsWhole) (arg10 : Memref sig .tc .vmem S256x1024 .f32) (harg10 : arg10.IsWhole)
    (arg11 : Memref sig .tc .vmem S256x1024 .f32) (harg11 : arg11.IsWhole)
    (x0 : Vec F S256x1024 .f32) (x1 : Vec F S256x1024 .bf16) (x2 : Vec F S256x1024 .f32) (x3 x4 : Vec F S1024x1024 .bf16)
    (x5 : Vec F S1x1024 .f32) (x6 x7 : Vec F S1024x4096 .bf16) (x8 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (hiddenOut x0 x1 x2 x3 x4 x5 x6 x7 x8)
            ∗ owns (c : Thread nD τ) arg11 fullShare (cellOut x0 x1 x2 x3 x4 x5 x6 x7 x8)) -∗ K ⟨⟩))
      ⊢ wp frame (wpE (defs₀ (F := F)) Variants.none c none) E
          (cc0__mlstm_kernel i arg1 harg1 arg2 harg2 arg3 harg3 arg4 harg4 arg5 harg5 arg6 harg6 arg7 harg7 arg8 harg8 arg9 harg9 arg10 harg10 arg11 harg11) K := by
  simp only [cc0__mlstm_kernel_eq_skeleton]; unfold cc0__mlstm_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (whole_store_covers _)
  iexists _; isplitr
  swap; · iexact H10
  ipureintro
  exact View.read_writes_eq_canon _ _ _ (whole_store_covers _)

end Cert.KernelIdeal.Region

end
-- ==== Proof.IdealRegion.lean ====
/-
  The region's run.

  The pipeline's proof data on a core: every window's array as the region finds it; after the body at a grid point each
  input's staging buffer at its block (the body only reads it) and the two outputs' at the new hidden block and the new
  cell block of that point's input blocks; between points nothing is kept but the core's untouched scratch and
  generator state, and no one is signalled. With the body's triple this gives the body obligation at every point, hence a run of the whole
  program: it ends, nothing faults, every window's array ends at what the proof data computes and every other buffer
  as the region found it — in particular the arguments are unchanged.
-/
import proofs.«111014_j13288628814422_2_alg».proof.Proof.IdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What grid point `t` leaves in the first output's buffer, and in the second's: the body's stores over that point's blocks. -/
abbrev hiddenAt (c : Dev nD) (t : Fin cfg0.N) : Vec F S256x1024 .f32 :=
  hiddenOut (blockAt m c 0 t) (blockAt m c 1 t) (blockAt m c 2 t) (blockAt m c 3 t) (blockAt m c 4 t) (blockAt m c 5 t) (blockAt m c 6 t) (blockAt m c 7 t) (blockAt m c 8 t)
abbrev cellAt (c : Dev nD) (t : Fin cfg0.N) : Vec F S256x1024 .f32 :=
  cellOut (blockAt m c 0 t) (blockAt m c 1 t) (blockAt m c 2 t) (blockAt m c 3 t) (blockAt m c 4 t) (blockAt m c 5 t) (blockAt m c 6 t) (blockAt m c 7 t) (blockAt m c 8 t)

def data (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => hiddenAt m c t
    | ⟨10, _⟩ => cellAt m c t
  Φ _ := Pipeline.ΦA spec0 c
  q _ := fullShare
  owed _ := 0

theorem data_A (c : Dev nD) (w : Fin cfg0.W) : (data m 0 c).A w = entry m c (Pipeline.arrRef spec0 w) := by
  dsimp only [data]

theorem after0 (c : Dev nD) (t : Fin cfg0.N) : (data m 0 c).after 0 t = blockAt m c 0 t := by dsimp only [data]
theorem after1 (c : Dev nD) (t : Fin cfg0.N) : (data m 0 c).after 1 t = blockAt m c 1 t := by dsimp only [data]
theorem after2 (c : Dev nD) (t : Fin cfg0.N) : (data m 0 c).after 2 t = blockAt m c 2 t := by dsimp only [data]
theorem after3 (c : Dev nD) (t : Fin cfg0.N) : (data m 0 c).after 3 t = blockAt m c 3 t := by dsimp only [data]
theorem after4 (c : Dev nD) (t : Fin cfg0.N) : (data m 0 c).after 4 t = blockAt m c 4 t := by dsimp only [data]
theorem after5 (c : Dev nD) (t : Fin cfg0.N) : (data m 0 c).after 5 t = blockAt m c 5 t := by dsimp only [data]
theorem after6 (c : Dev nD) (t : Fin cfg0.N) : (data m 0 c).after 6 t = blockAt m c 6 t := by dsimp only [data]
theorem after7 (c : Dev nD) (t : Fin cfg0.N) : (data m 0 c).after 7 t = blockAt m c 7 t := by dsimp only [data]
theorem after8 (c : Dev nD) (t : Fin cfg0.N) : (data m 0 c).after 8 t = blockAt m c 8 t := by dsimp only [data]
theorem after9 (c : Dev nD) (t : Fin cfg0.N) : (data m 0 c).after 9 t = hiddenAt m c t := by dsimp only [data]
theorem after10 (c : Dev nD) (t : Fin cfg0.N) : (data m 0 c).after 10 t = cellAt m c t := by dsimp only [data]

theorem before0 (c : Dev nD) (t : Fin cfg0.N) (d) : (data m 0 c).before 0 t d = blockAt m c 0 t :=
  found0 m (data m 0 c) (data_A m c 0) (after0 m c) t d
theorem before1 (c : Dev nD) (t : Fin cfg0.N) (d) : (data m 0 c).before 1 t d = blockAt m c 1 t :=
  found1 m (data m 0 c) (data_A m c 1) (after1 m c) t d
theorem before2 (c : Dev nD) (t : Fin cfg0.N) (d) : (data m 0 c).before 2 t d = blockAt m c 2 t :=
  found2 m (data m 0 c) (data_A m c 2) (after2 m c) t d
theorem before3 (c : Dev nD) (t : Fin cfg0.N) (d) : (data m 0 c).before 3 t d = blockAt m c 3 t :=
  found3 m (data m 0 c) (data_A m c 3) (after3 m c) t d
theorem before4 (c : Dev nD) (t : Fin cfg0.N) (d) : (data m 0 c).before 4 t d = blockAt m c 4 t :=
  found4 m (data m 0 c) (data_A m c 4) (after4 m c) t d
theorem before5 (c : Dev nD) (t : Fin cfg0.N) (d) : (data m 0 c).before 5 t d = blockAt m c 5 t :=
  found5 m (data m 0 c) (data_A m c 5) (after5 m c) t d
theorem before6 (c : Dev nD) (t : Fin cfg0.N) (d) : (data m 0 c).before 6 t d = blockAt m c 6 t :=
  found6 m (data m 0 c) (data_A m c 6) (after6 m c) t d
theorem before7 (c : Dev nD) (t : Fin cfg0.N) (d) : (data m 0 c).before 7 t d = blockAt m c 7 t :=
  found7 m (data m 0 c) (data_A m c 7) (after7 m c) t d
theorem before8 (c : Dev nD) (t : Fin cfg0.N) (d) : (data m 0 c).before 8 t d = blockAt m c 8 t :=
  found8 m (data m 0 c) (data_A m c 8) (after8 m c) t d

/-! ## The body obligation -/

/-- What the pipeline calls the body with at point `t`, the windows one by one, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d))
    ∗ (∃ d, owns (c : Thread nD τ) (st0_8 t) fullShare ((data m 0 c).before 8 t d))
    ∗ (∃ d, owns (c : Thread nD τ) (st0_9 t) fullShare ((data m 0 c).before 9 t d))
    ∗ (∃ d, owns (c : Thread nD τ) (st0_10 t) fullShare ((data m 0 c).before 10 t d)))

/-- and what it gets back. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t)
    ∗ owns (c : Thread nD τ) (st0_4 t) fullShare ((data m 0 c).after 4 t)
    ∗ owns (c : Thread nD τ) (st0_5 t) fullShare ((data m 0 c).after 5 t)
    ∗ owns (c : Thread nD τ) (st0_6 t) fullShare ((data m 0 c).after 6 t)
    ∗ owns (c : Thread nD τ) (st0_7 t) fullShare ((data m 0 c).after 7 t)
    ∗ owns (c : Thread nD τ) (st0_8 t) fullShare ((data m 0 c).after 8 t)
    ∗ owns (c : Thread nD τ) (st0_9 t) fullShare ((data m 0 c).after 9 t)
    ∗ owns (c : Thread nD τ) (st0_10 t) fullShare ((data m 0 c).after 10 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (data m 0 c).Φ t.succ = (data m 0 c).Φ t.castSucc from rfl,
    show (data m 0 c).owesAt () t.succ = (data m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ (grid0.coords t) _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (data (F := F) m 0 c) (defs₀ (F := F)) Variants.none () Set.univ := fun t => by
  rw [bigSep_W0, bigSep_W0]
  exact body_at_point m c t

/-! ## The run -/

set_option backward.isDefEq.respectTransparency.types false in
/-- Every weakly fair execution of the program from a memory with zero counters terminates without a fault, each window's
    array at the end what the proof data computes and every bypassing buffer as the region found it. -/
theorem run_region : θ_run defs (onTc (τ := τ) (main (F := F))) (s₀ m ρ) (Pipeline.FramePost cfgs (data m) 0 (entry m)) :=
  Pipeline.θ_run_frame cfgs (data m) (0 : Fin 1) launch0 defs₀ Variants.none m ρ main
    (hbody := fun c => (body_obligation m c).loose) (hshare := fun c => (data m 0 c).share_full fun _ => rfl)
    (howed := fun _ _ => rfl) (V := entry m) (hmain := main_to_region m Variants.none) (hA := data_A m) (hΦ := fun _ _ => rfl)

/-- The program runs and leaves its eighteen arguments unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  args_kept_of m ρ (data m) (data_A m) (run_region m ρ)

end Cert.KernelIdeal.Region

end
-- ==== Proof.CellSpec.lean ====
/-
  One step of a multiplicative LSTM cell on the extended reals, entry by entry.

  For a batch row with input row `x`, previous hidden row `h` (each of 1024 entries) and previous cell entry `c`:
    m_k   = (Σ_j x_j · Wm[j,k]) + (Σ_j h_j · Um[j,k]) + bm_k          the multiplicative transform
    x̃_k   = m_k · x_k
    g_q'  = (Σ_k x̃_k · Wc[k,q']) + (Σ_k h_k · Uc[k,q']) + bc_q'       the four gates side by side, q' < 4096
    c'_q  = σ(g_{1024+q}) · c + σ(g_q) · tanh(g_{3072+q})
    h'_q  = σ(g_{2048+q}) · tanh(c'_q)
  with σ the logistic function. `Wc`, `Uc`, `bc` are the four gates' weights joined along the output axis; nothing
  here looks inside the joined arrays, so the same function describes a program that joins them in any way.
  Only sums, products and the three transcendental functions occur: no law that would need finiteness.
-/
import Idealize.ShloMosaic.PureOps.Ideal
import Idealize.ShloMosaic.Lib.ValueIdx

noncomputable section

open scoped BigOperators

namespace Cert.Cell

open Idealize.ShloMosaic Idealize.ShloMosaic.ValueIdx

/-- Matrices of weights as functions of a rank-2 index, vectors of biases as functions of a rank-1 index. -/
abbrev Sq : Shape := ⟨2, ![1024, 1024]⟩
abbrev Wide : Shape := ⟨2, ![1024, 4096]⟩
abbrev Len1 : Shape := ⟨1, ![1024]⟩
abbrev Len4 : Shape := ⟨1, ![4096]⟩

/-- Column `off + q` of the joined gate arrays: gate number `off / 1024`, unit `q`. -/
abbrev col (off : Nat) (h : off + 1024 ≤ 4096) (q : Fin 1024) : Fin 4096 := ⟨off + q.val, by have := q.isLt; omega⟩

/-- The transformed input row `x̃`: `(x·Wm + h·Um + bm) ⊙ x`. -/
def mixed (x h : Fin 1024 → EReal) (Wm Um : Sq.Idx → EReal) (bm : Len1.Idx → EReal) (k : Fin 1024) : EReal :=
  ((∑ j : Fin 1024, x j * Wm (ix2 j k)) + (∑ j : Fin 1024, h j * Um (ix2 j k)) + bm (ix1 k)) * x k

/-- The gates' pre-activations, all 4096 of them: `x̃·Wc + h·Uc + bc`. -/
def gate (xt h : Fin 1024 → EReal) (Wc Uc : Wide.Idx → EReal) (bc : Len4.Idx → EReal) (q' : Fin 4096) : EReal :=
  (∑ k : Fin 1024, xt k * Wc (ix2 k q')) + (∑ k : Fin 1024, h k * Uc (ix2 k q')) + bc (ix1 q')

/-- The new cell entry: forget gate times the old entry plus input gate times the candidate. -/
def newC (x h : Fin 1024 → EReal) (c : EReal) (Wm Um : Sq.Idx → EReal) (bm : Len1.Idx → EReal)
    (Wc Uc : Wide.Idx → EReal) (bc : Len4.Idx → EReal) (q : Fin 1024) : EReal :=
  Ideal.logistic (gate (mixed x h Wm Um bm) h Wc Uc bc (col 1024 (by omega) q)) * c
    + Ideal.logistic (gate (mixed x h Wm Um bm) h Wc Uc bc (col 0 (by omega) q))
      * Ideal.tanh (gate (mixed x h Wm Um bm) h Wc Uc bc (col 3072 (by omega) q))

/-- The new hidden entry: output gate times tanh of the new cell entry. -/
def newH (x h : Fin 1024 → EReal) (c : EReal) (Wm Um : Sq.Idx → EReal) (bm : Len1.Idx → EReal)
    (Wc Uc : Wide.Idx → EReal) (bc : Len4.Idx → EReal) (q : Fin 1024) : EReal :=
  Ideal.logistic (gate (mixed x h Wm Um bm) h Wc Uc bc (col 2048 (by omega) q))
    * Ideal.tanh (newC x h c Wm Um bm Wc Uc bc q)

/-- Row `r` of an array of `n` rows of 1024 entries. -/
abbrev row {n : Nat} (X : (⟨2, ![n, 1024]⟩ : Shape).Idx → EReal) (r : Fin n) : Fin 1024 → EReal := fun k => X (ix2 r k)

/-- The whole new cell state and the whole new hidden state of a batch of `n` rows. -/
def cellArray {n : Nat} (X H C : (⟨2, ![n, 1024]⟩ : Shape).Idx → EReal) (Wm Um : Sq.Idx → EReal) (bm : Len1.Idx → EReal)
    (Wc Uc : Wide.Idx → EReal) (bc : Len4.Idx → EReal) : (⟨2, ![n, 1024]⟩ : Shape).Idx → EReal :=
  fun i => newC (row X (i 0)) (row H (i 0)) (C i) Wm Um bm Wc Uc bc (i 1)
def hiddenArray {n : Nat} (X H C : (⟨2, ![n, 1024]⟩ : Shape).Idx → EReal) (Wm Um : Sq.Idx → EReal) (bm : Len1.Idx → EReal)
    (Wc Uc : Wide.Idx → EReal) (bc : Len4.Idx → EReal) : (⟨2, ![n, 1024]⟩ : Shape).Idx → EReal :=
  fun i => newH (row X (i 0)) (row H (i 0)) (C i) Wm Um bm Wc Uc bc (i 1)

end Cert.Cell

end
-- ==== Proof.IdealBlocks.lean ====
/-
  The blocks of the region's windows, entry by entry, in terms of the argument arrays.

  Grid point `t` (of 32) handles batch rows `256·t … 256·t + 255`: row `p` of the x, h and c blocks is row `256·t + p` of the
  argument arrays (the h window stages the host's bf16 copy of `h_prev`, which on the extended reals is `h_prev` itself).
  The six weight and bias windows have one block, the whole array, at every point: the square matrices are the
  arguments (their bf16 copies, again the same function), the first bias row is `b_m` with a unit axis in front, and the
  wide windows are the four gates' matrices (and bias vectors) joined side by side by the host — kept here as the
  joins themselves, never opened. The body reads each wide block in two halves: columns `0 … 2047` and `2048 … 4095`.
-/
import proofs.«111014_j13288628814422_2_alg».proof.Proof.IdealBody
import proofs.«111014_j13288628814422_2_alg».proof.Proof.CellSpec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Final

open Cert.KernelIdeal Cert.KernelIdeal.Gen Cert.KernelIdeal.Region
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The joined gate arrays -/

/-- The four gates' input weights side by side, as the host joins them: `[W_i | W_f | W_o | W_c]`. -/
abbrev joinedW (c : Dev nD) : S1024x4096.Idx → EReal :=
  concatenate (α := EReal) S1024x4096 1 [⟨S1024x1024, m ((c : Thread nD τ).loc main_arg6)⟩, ⟨S1024x1024, m ((c : Thread nD τ).loc main_arg9)⟩, ⟨S1024x1024, m ((c : Thread nD τ).loc main_arg12)⟩, ⟨S1024x1024, m ((c : Thread nD τ).loc main_arg15)⟩] concatenates_S1024x1024_S1024x1024_S1024x1024_S1024x1024_S1024x4096_d1
/-- The four gates' recurrent weights side by side: `[U_i | U_f | U_o | U_c]`. -/
abbrev joinedU (c : Dev nD) : S1024x4096.Idx → EReal :=
  concatenate (α := EReal) S1024x4096 1 [⟨S1024x1024, m ((c : Thread nD τ).loc main_arg7)⟩, ⟨S1024x1024, m ((c : Thread nD τ).loc main_arg10)⟩, ⟨S1024x1024, m ((c : Thread nD τ).loc main_arg13)⟩, ⟨S1024x1024, m ((c : Thread nD τ).loc main_arg16)⟩] concatenates_S1024x1024_S1024x1024_S1024x1024_S1024x1024_S1024x4096_d1
/-- The four gates' biases end to end: `[b_i | b_f | b_o | b_c]`. -/
abbrev joinedB (c : Dev nD) : S4096.Idx → EReal :=
  concatenate (α := EReal) S4096 0 [⟨S1024, m ((c : Thread nD τ).loc main_arg8)⟩, ⟨S1024, m ((c : Thread nD τ).loc main_arg11)⟩, ⟨S1024, m ((c : Thread nD τ).loc main_arg14)⟩, ⟨S1024, m ((c : Thread nD τ).loc main_arg17)⟩] concatenates_S1024_S1024_S1024_S1024_S4096_d0

/-! ## What the host operations before the region leave in the staged intermediates -/

theorem entry_h (c : Dev nD) : (entry m c main_v9 : S8192x1024.Idx → EReal) = (m ((c : Thread nD τ).loc main_arg1) : S8192x1024.Idx → EReal) := by
  dsimp only [entry, hostOps0]; after_results; rfl
theorem entry_Wm (c : Dev nD) : (entry m c main_v3 : S1024x1024.Idx → EReal) = (m ((c : Thread nD τ).loc main_arg3) : S1024x1024.Idx → EReal) := by
  dsimp only [entry, hostOps0]; after_results; rfl
theorem entry_Um (c : Dev nD) : (entry m c main_v4 : S1024x1024.Idx → EReal) = (m ((c : Thread nD τ).loc main_arg4) : S1024x1024.Idx → EReal) := by
  dsimp only [entry, hostOps0]; after_results; rfl
theorem entry_bm (c : Dev nD) : (entry m c main_v7 : S1x1024.Idx → EReal)
    = shapeCast S1x1024 (m ((c : Thread nD τ).loc main_arg5) : S1024.Idx → EReal) shapeCasts_S1024_S1x1024 := by
  dsimp only [entry, hostOps0]; after_results; rfl
theorem entry_W (c : Dev nD) : (entry m c main_v5 : S1024x4096.Idx → EReal) = joinedW m c := by
  dsimp only [entry, hostOps0]; after_results; rfl
theorem entry_U (c : Dev nD) : (entry m c main_v6 : S1024x4096.Idx → EReal) = joinedU m c := by
  dsimp only [entry, hostOps0]; after_results; rfl
theorem entry_b (c : Dev nD) : (entry m c main_v8 : S1x4096.Idx → EReal) = shapeCast S1x4096 (joinedB m c) shapeCasts_S4096_S1x4096 := by
  dsimp only [entry, hostOps0]; after_results; rfl

/-! ## The index maps over the grid -/

/-- The three row-blocked inputs and the two outputs move one block down per grid point; the six weight and bias
    windows stay at block `(0, 0)`. Decided over the 32 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem point_lt (t : Fin cfg0.N) : t.val < 32 := lt_of_lt_of_eq t.isLt N_0

/-- The batch row that row `p` of grid point `t`'s block is. -/
abbrev rowOf (t : Fin cfg0.N) (p : Fin 256) : Fin 8192 := ⟨256 * t.val + p.val, by have := point_lt t; have := p.isLt; omega⟩

/-- Column `q2` of a left half, and of a right half, of a joined array. -/
abbrev leftCol (q2 : Fin 2048) : Fin 4096 := ⟨q2.val, by have := q2.isLt; omega⟩
abbrev rightCol (q2 : Fin 2048) : Fin 4096 := ⟨2048 + q2.val, by have := q2.isLt; omega⟩

/-! ## The row blocks -/

theorem x_block (c : Dev nD) (t : Fin cfg0.N) (p : Fin 256) (k : Fin 1024) :
    blockAt m c 0 t (ix2 p k) = m ((c : Thread nD τ).loc main_arg0) (ix2 (rowOf t p) k) := by
  show entry m c main_arg0 (((cfg0.win 0).blk t).view.emb (ix2 p k)) = _
  rw [entry_arg0]
  refine congrArg _ ?_
  obtain ⟨e0, e1, -⟩ := idx_facts t
  funext a; apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega

theorem h_block (c : Dev nD) (t : Fin cfg0.N) (p : Fin 256) (k : Fin 1024) :
    blockAt m c 1 t (ix2 p k) = m ((c : Thread nD τ).loc main_arg1) (ix2 (rowOf t p) k) := by
  show (entry m c main_v9 : S8192x1024.Idx → EReal) (((cfg0.win 1).blk t).view.emb (ix2 p k)) = _
  rw [entry_h]
  refine congrArg _ ?_
  obtain ⟨-, -, e0, e1, -⟩ := idx_facts t
  funext a; apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega

theorem c_block (c : Dev nD) (t : Fin cfg0.N) (p : Fin 256) (k : Fin 1024) :
    blockAt m c 2 t (ix2 p k) = m ((c : Thread nD τ).loc main_arg2) (ix2 (rowOf t p) k) := by
  show entry m c main_arg2 (((cfg0.win 2).blk t).view.emb (ix2 p k)) = _
  rw [entry_arg2]
  refine congrArg _ ?_
  obtain ⟨-, -, -, -, e0, e1, -⟩ := idx_facts t
  funext a; apply Fin.ext
  match a with
  | ⟨0, _⟩ => show win0_2.index t (0 : Fin 2) * 256 + 1 * p.val = 256 * t.val + p.val; omega
  | ⟨1, _⟩ => show win0_2.index t (1 : Fin 2) * 1024 + 1 * k.val = k.val; omega

/-! ## The weight and bias blocks -/

theorem Wm_block (c : Dev nD) (t : Fin cfg0.N) (j k : Fin 1024) :
    blockAt m c 3 t (ix2 j k) = m ((c : Thread nD τ).loc main_arg3) (ix2 j k) := by
  show (entry m c main_v3 : S1024x1024.Idx → EReal) (((cfg0.win 3).blk t).view.emb (ix2 j k)) = _
  rw [entry_Wm]
  refine congrArg _ ?_
  obtain ⟨-, -, -, -, -, -, e0, e1, -⟩ := idx_facts t
  funext a; apply Fin.ext
  match a with
  | ⟨0, _⟩ => show win0_3.index t (0 : Fin 2) * 1024 + 1 * j.val = j.val; omega
  | ⟨1, _⟩ => show win0_3.index t (1 : Fin 2) * 1024 + 1 * k.val = k.val; omega

theorem Um_block (c : Dev nD) (t : Fin cfg0.N) (j k : Fin 1024) :
    blockAt m c 4 t (ix2 j k) = m ((c : Thread nD τ).loc main_arg4) (ix2 j k) := by
  show (entry m c main_v4 : S1024x1024.Idx → EReal) (((cfg0.win 4).blk t).view.emb (ix2 j k)) = _
  rw [entry_Um]
  refine congrArg _ ?_
  obtain ⟨-, -, -, -, -, -, -, -, e0, e1, -⟩ := idx_facts t
  funext a; apply Fin.ext
  match a with
  | ⟨0, _⟩ => show win0_4.index t (0 : Fin 2) * 1024 + 1 * j.val = j.val; omega
  | ⟨1, _⟩ => show win0_4.index t (1 : Fin 2) * 1024 + 1 * k.val = k.val; omega

theorem bm_block (c : Dev nD) (t : Fin cfg0.N) (k : Fin 1024) :
    blockAt m c 5 t (ix2 (0 : Fin 1) k) = m ((c : Thread nD τ).loc main_arg5) (ix1 k) := by
  show (entry m c main_v7 : S1x1024.Idx → EReal) (((cfg0.win 5).blk t).view.emb (ix2 (0 : Fin 1) k)) = _
  rw [entry_bm]
  refine Eq.trans (congrArg _ ?_) (shapeCast_a_1a_apply (m ((c : Thread nD τ).loc main_arg5) : S1024.Idx → EReal) shapeCasts_S1024_S1x1024 (0 : Fin 1) k)
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 1024 + 1 * k.val = k.val; omega

/-- The left half of the joined input weights, as the body loads it. -/
theorem W_left (c : Dev nD) (t : Fin cfg0.N) (k : Fin 1024) (q2 : Fin 2048) :
    View.ld (blockAt m c 6 t) rLeft (ix2 k q2) = joinedW m c (ix2 k (leftCol q2)) := by
  show (entry m c main_v5 : S1024x4096.Idx → EReal) (((cfg0.win 6).blk t).view.emb (rLeft.idx (ix2 k q2))) = _
  rw [entry_W]
  refine congrArg _ ?_
  obtain ⟨-, -, -, -, -, -, -, -, -, -, -, -, e0, e1, -⟩ := idx_facts t
  funext a; apply Fin.ext
  match a with
  | ⟨0, _⟩ => show win0_6.index t (0 : Fin 2) * 1024 + 1 * (0 + 1 * k.val) = k.val; omega
  | ⟨1, _⟩ => show win0_6.index t (1 : Fin 2) * 4096 + 1 * (0 + 1 * q2.val) = q2.val; omega

theorem W_right (c : Dev nD) (t : Fin cfg0.N) (k : Fin 1024) (q2 : Fin 2048) :
    View.ld (blockAt m c 6 t) rRight (ix2 k q2) = joinedW m c (ix2 k (rightCol q2)) := by
  show (entry m c main_v5 : S1024x4096.Idx → EReal) (((cfg0.win 6).blk t).view.emb (rRight.idx (ix2 k q2))) = _
  rw [entry_W]
  refine congrArg _ ?_
  obtain ⟨-, -, -, -, -, -, -, -, -, -, -, -, e0, e1, -⟩ := idx_facts t
  funext a; apply Fin.ext
  match a with
  | ⟨0, _⟩ => show win0_6.index t (0 : Fin 2) * 1024 + 1 * (0 + 1 * k.val) = k.val; omega
  | ⟨1, _⟩ => show win0_6.index t (1 : Fin 2) * 4096 + 1 * (2048 + 1 * q2.val) = 2048 + q2.val; omega

theorem U_left (c : Dev nD) (t : Fin cfg0.N) (k : Fin 1024) (q2 : Fin 2048) :
    View.ld (blockAt m c 7 t) rLeft (ix2 k q2) = joinedU m c (ix2 k (leftCol q2)) := by
  show (entry m c main_v6 : S1024x4096.Idx → EReal) (((cfg0.win 7).blk t).view.emb (rLeft.idx (ix2 k q2))) = _
  rw [entry_U]
  refine congrArg _ ?_
  obtain ⟨-, -, -, -, -, -, -, -, -, -, -, -, -, -, e0, e1, -⟩ := idx_facts t
  funext a; apply Fin.ext
  match a with
  | ⟨0, _⟩ => show win0_7.index t (0 : Fin 2) * 1024 + 1 * (0 + 1 * k.val) = k.val; omega
  | ⟨1, _⟩ => show win0_7.index t (1 : Fin 2) * 4096 + 1 * (0 + 1 * q2.val) = q2.val; omega

theorem U_right (c : Dev nD) (t : Fin cfg0.N) (k : Fin 1024) (q2 : Fin 2048) :
    View.ld (blockAt m c 7 t) rRight (ix2 k q2) = joinedU m c (ix2 k (rightCol q2)) := by
  show (entry m c main_v6 : S1024x4096.Idx → EReal) (((cfg0.win 7).blk t).view.emb (rRight.idx (ix2 k q2))) = _
  rw [entry_U]
  refine congrArg _ ?_
  obtain ⟨-, -, -, -, -, -, -, -, -, -, -, -, -, -, e0, e1, -⟩ := idx_facts t
  funext a; apply Fin.ext
  match a with
  | ⟨0, _⟩ => show win0_7.index t (0 : Fin 2) * 1024 + 1 * (0 + 1 * k.val) = k.val; omega
  | ⟨1, _⟩ => show win0_7.index t (1 : Fin 2) * 4096 + 1 * (2048 + 1 * q2.val) = 2048 + q2.val; omega

theorem b_left (c : Dev nD) (t : Fin cfg0.N) (q2 : Fin 2048) :
    View.ld (blockAt m c 8 t) rBiasLeft (ix2 (0 : Fin 1) q2) = joinedB m c (ix1 (leftCol q2)) := by
  show (entry m c main_v8 : S1x4096.Idx → EReal) (((cfg0.win 8).blk t).view.emb (rBiasLeft.idx (ix2 (0 : Fin 1) q2))) = _
  rw [entry_b]
  refine Eq.trans (congrArg _ ?_) (shapeCast_a_1a_apply (joinedB m c) shapeCasts_S4096_S1x4096 (0 : Fin 1) (leftCol q2))
  obtain ⟨-, -, -, -, -, -, -, -, -, -, -, -, -, -, -, -, e0, e1, -⟩ := idx_facts t
  funext a; apply Fin.ext
  match a with
  | ⟨0, _⟩ => show win0_8.index t (0 : Fin 2) * 1 + 1 * (0 + 1 * 0) = 0; omega
  | ⟨1, _⟩ => show win0_8.index t (1 : Fin 2) * 4096 + 1 * (0 + 1 * q2.val) = q2.val; omega

theorem b_right (c : Dev nD) (t : Fin cfg0.N) (q2 : Fin 2048) :
    View.ld (blockAt m c 8 t) rBiasRight (ix2 (0 : Fin 1) q2) = joinedB m c (ix1 (rightCol q2)) := by
  show (entry m c main_v8 : S1x4096.Idx → EReal) (((cfg0.win 8).blk t).view.emb (rBiasRight.idx (ix2 (0 : Fin 1) q2))) = _
  rw [entry_b]
  refine Eq.trans (congrArg _ ?_) (shapeCast_a_1a_apply (joinedB m c) shapeCasts_S4096_S1x4096 (0 : Fin 1) (rightCol q2))
  obtain ⟨-, -, -, -, -, -, -, -, -, -, -, -, -, -, -, -, e0, e1, -⟩ := idx_facts t
  funext a; apply Fin.ext
  match a with
  | ⟨0, _⟩ => show win0_8.index t (0 : Fin 2) * 1 + 1 * (0 + 1 * 0) = 0; omega
  | ⟨1, _⟩ => show win0_8.index t (1 : Fin 2) * 4096 + 1 * (2048 + 1 * q2.val) = 2048 + q2.val; omega

end Cert.KernelIdeal.Final

end
-- ==== Proof.BodyCell.lean ====
/-
  One block of the kernel body computes the cell, entry by entry.

  A grid point handles 256 batch rows. Of the joined gate arrays (4096 columns: input, forget, output gate and candidate,
  1024 columns each) the body reads the left half (columns 0..2047) and the right half (columns 2048..4095) separately,
  forms each half's pre-activations as two products with [1024,2048] matrices plus a bias row, and cuts each half into
  its two gates. Read at row `p` and unit `q` of the block, on the extended reals:
    the transformed input    x̃[p,k]  = ((Σ_j x[p,j]·Wm[j,k]) + (Σ_j h[p,j]·Um[j,k]) + bm[k]) · x[p,k]      (`mixed_apply`)
    a half's pre-activation  g[p,q'] = (Σ_k x̃[p,k]·Wc[k,q']) + (Σ_k h[p,k]·Uc[k,q']) + bc[q']             (`gates_lo_apply`, `gates_hi_apply`)
    the stored cell entry    σ(g[p,1024+q])·c[p,q] + σ(g[p,q])·tanh(g[p,3072+q])                            (`body_cell`)
    the stored hidden entry  σ(g[p,2048+q])·tanh(the stored cell entry)                                       (`body_hidden`)
  which are the specification's `Cell.mixed`, `Cell.gate`, `Cell.newC` and `Cell.newH` of row `p` of the blocks.
  The format changes and the shape casts to the same shape are the identity on the extended reals; a product
  accumulated from the zero array is the plain row-by-column sum (`matmul_sq_apply`, `matmul_wide_apply`); a slice of
  1024 columns at offset 0 or 1024 reads the operand at the shifted column (`slice_left_apply`, `slice_right_apply`).
  Everything is stated over variables of the literal array types, with the loaded weight blocks tied to the
  specification's arrays by hypotheses (`hwm` … `hb23`): column `q2` of a left half is column `q2` of the joined array,
  column `q2` of a right half is column `2048 + q2`.
-/
import proofs.«111014_j13288628814422_2_alg».proof.Proof.Gen.KernelIdeal.Skeleton
import proofs.«111014_j13288628814422_2_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.BodyCell

open Idealize.ShloMosaic Idealize.ShloMosaic.ValueIdx Cert.KernelIdeal Cert.KernelIdeal.Gen

/-- The square product's dimension numbers: the left operand is read at the result's row … -/
theorem lhs_sq_0 (i : S256x1024.Idx) (c : dot_S256x1024_S1024x1024_S256x1024_1_0_0_1_n_n.contr.Idx) :
    (dot_S256x1024_S1024x1024_S256x1024_1_0_0_1_n_n.lhsIdx i c 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- … and the right operand at the result's column. -/
theorem rhs_sq_1 (i : S256x1024.Idx) (c : dot_S256x1024_S1024x1024_S256x1024_1_0_0_1_n_n.contr.Idx) :
    (dot_S256x1024_S1024x1024_S256x1024_1_0_0_1_n_n.rhsIdx i c 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Accumulated from zero, the product of a [256,1024] block with a [1024,1024] matrix is, at row `p` and column `q`,
    the sum over `k` of the block's row times the matrix's column. -/
theorem matmul_sq_apply (a : FVec Ideal S256x1024 .bf16) (b : FVec Ideal S1024x1024 .bf16) (p : Fin 256) (q : Fin 1024) :
    matmul (F := Ideal) dot_S256x1024_S1024x1024_S256x1024_1_0_0_1_n_n none a b (constant (F := Ideal) S256x1024 .f32 0x00000000#32) (ix2 p q)
      = ∑ k : Fin 1024, a (ix2 p k) * b (ix2 k q) := by
  refine (Ideal.matmul_constant_zero_apply dot_S256x1024_S1024x1024_S256x1024_1_0_0_1_n_n none a b (ix2 p q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p q) ((contrEquiv1 dot_S256x1024_S1024x1024_S256x1024_1_0_0_1_n_n 1024 rfl rfl).symm k) = ix2 p k :=
    funext fun ax => Fin.ext (by
      match ax with
      | ⟨0, _⟩ => exact lhs_sq_0 _ _
      | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p q) ((contrEquiv1 dot_S256x1024_S1024x1024_S256x1024_1_0_0_1_n_n 1024 rfl rfl).symm k) = ix2 k q :=
    funext fun ax => Fin.ext (by
      match ax with
      | ⟨0, _⟩ => exact (dot_S256x1024_S1024x1024_S256x1024_1_0_0_1_n_n.rhsIdx_val_of_single rfl _ _).trans hk
      | ⟨1, _⟩ => exact rhs_sq_1 _ _)
  rw [el, er]

/-- The wide product's dimension numbers: the left operand is read at the result's row … -/
theorem lhs_wide_0 (i : S256x2048.Idx) (c : dot_S256x1024_S1024x2048_S256x2048_1_0_0_1_n_n.contr.Idx) :
    (dot_S256x1024_S1024x2048_S256x2048_1_0_0_1_n_n.lhsIdx i c 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
/-- … and the right operand at the result's column. -/
theorem rhs_wide_1 (i : S256x2048.Idx) (c : dot_S256x1024_S1024x2048_S256x2048_1_0_0_1_n_n.contr.Idx) :
    (dot_S256x1024_S1024x2048_S256x2048_1_0_0_1_n_n.rhsIdx i c 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- Accumulated from zero, the product of a [256,1024] block with a [1024,2048] matrix is, at row `p` and column `q`,
    the sum over `k` of the block's row times the matrix's column. -/
theorem matmul_wide_apply (a : FVec Ideal S256x1024 .bf16) (b : FVec Ideal S1024x2048 .bf16) (p : Fin 256) (q : Fin 2048) :
    matmul (F := Ideal) dot_S256x1024_S1024x2048_S256x2048_1_0_0_1_n_n none a b (constant (F := Ideal) S256x2048 .f32 0x00000000#32) (ix2 p q)
      = ∑ k : Fin 1024, a (ix2 p k) * b (ix2 k q) := by
  refine (Ideal.matmul_constant_zero_apply dot_S256x1024_S1024x2048_S256x2048_1_0_0_1_n_n none a b (ix2 p q)).trans ?_
  rw [← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 p q) ((contrEquiv1 dot_S256x1024_S1024x2048_S256x2048_1_0_0_1_n_n 1024 rfl rfl).symm k) = ix2 p k :=
    funext fun ax => Fin.ext (by
      match ax with
      | ⟨0, _⟩ => exact lhs_wide_0 _ _
      | ⟨1, _⟩ => exact (dot_S256x1024_S1024x2048_S256x2048_1_0_0_1_n_n.lhsIdx_val_of_single rfl _ _).trans hk)
  have er : dot_S256x1024_S1024x2048_S256x2048_1_0_0_1_n_n.rhsIdx (ix2 p q) ((contrEquiv1 dot_S256x1024_S1024x2048_S256x2048_1_0_0_1_n_n 1024 rfl rfl).symm k) = ix2 k q :=
    funext fun ax => Fin.ext (by
      match ax with
      | ⟨0, _⟩ => exact (dot_S256x1024_S1024x2048_S256x2048_1_0_0_1_n_n.rhsIdx_val_of_single rfl _ _).trans hk
      | ⟨1, _⟩ => exact rhs_wide_1 _ _)
  rw [el, er]

/-- The transformed input block, entry by entry: row `p` of the block's two products plus the bias, times the input. -/
theorem mixed_apply (x0 : Vec Ideal S256x1024 .f32) (h0 : Vec Ideal S256x1024 .bf16) (wm um : Vec Ideal S1024x1024 .bf16)
    (bmB : Vec Ideal S1x1024 .f32) (Wm Um : Cert.Cell.Sq.Idx → EReal) (Bm : Cert.Cell.Len1.Idx → EReal)
    (hwm : ∀ (j k : Fin 1024), wm (ix2 j k) = Wm (ix2 j k)) (hum : ∀ (j k : Fin 1024), um (ix2 j k) = Um (ix2 j k))
    (hbm : ∀ k : Fin 1024, bmB (ix2 (0 : Fin 1) k) = Bm (ix1 k)) (p : Fin 256) (k : Fin 1024) :
    k0_pay5 (F := Ideal) x0 h0 wm um bmB (ix2 p k)
      = Cert.Cell.mixed (fun j => x0 (ix2 p j)) (fun j => h0 (ix2 p j)) Wm Um Bm k := by
  unfold k0_pay5 k0_pay4
  simp only [shapeCast_self]
  simp only [truncf_apply, mulf_apply, addf_apply, matmul_sq_apply, broadcastTo_1b_ab_apply]
  unfold Cert.Cell.mixed
  simp only [hwm, hum, hbm]

/-- A column of the left half of the joined gate arrays, as a column of the whole … -/
abbrev lo (q2 : Fin 2048) : Fin 4096 := ⟨q2.val, by have := q2.isLt; omega⟩
/-- … and a column of the right half. -/
abbrev hi (q2 : Fin 2048) : Fin 4096 := ⟨2048 + q2.val, by have := q2.isLt; omega⟩

/-- Half of the gates' pre-activations — two products with [1024,2048] matrices plus a bias row repeated down the
    block — entry by entry. -/
theorem half_gates_apply (xt h : FVec Ideal S256x1024 .bf16) (w u : FVec Ideal S1024x2048 .bf16) (b : FVec Ideal S1x2048 .f32)
    (hb : S1x2048.Broadcasts S256x2048) (p : Fin 256) (q2 : Fin 2048) :
    addf (addf (matmul (F := Ideal) dot_S256x1024_S1024x2048_S256x2048_1_0_0_1_n_n none xt w (constant (F := Ideal) S256x2048 .f32 0x00000000#32))
               (matmul (F := Ideal) dot_S256x1024_S1024x2048_S256x2048_1_0_0_1_n_n none h u (constant (F := Ideal) S256x2048 .f32 0x00000000#32)))
         (broadcastTo S256x2048 b hb) (ix2 p q2)
      = (∑ k : Fin 1024, xt (ix2 p k) * w (ix2 k q2)) + (∑ k : Fin 1024, h (ix2 p k) * u (ix2 k q2)) + b (ix2 (0 : Fin 1) q2) := by
  simp only [addf_apply, matmul_wide_apply, broadcastTo_1b_ab_apply]

/-- The left half of the pre-activations (input and forget gates) is the specification's gate function at the
    left half's columns. -/
theorem gates_lo_apply (x0 : Vec Ideal S256x1024 .f32) (h0 : Vec Ideal S256x1024 .bf16) (wm um : Vec Ideal S1024x1024 .bf16)
    (bmB : Vec Ideal S1x1024 .f32) (w01 u01 : Vec Ideal S1024x2048 .bf16) (b01 : Vec Ideal S1x2048 .f32)
    (Wm Um : Cert.Cell.Sq.Idx → EReal) (Bm : Cert.Cell.Len1.Idx → EReal) (Wc Uc : Cert.Cell.Wide.Idx → EReal) (Bc : Cert.Cell.Len4.Idx → EReal)
    (hwm : ∀ (j k : Fin 1024), wm (ix2 j k) = Wm (ix2 j k)) (hum : ∀ (j k : Fin 1024), um (ix2 j k) = Um (ix2 j k))
    (hbm : ∀ k : Fin 1024, bmB (ix2 (0 : Fin 1) k) = Bm (ix1 k))
    (hw01 : ∀ (k : Fin 1024) (q2 : Fin 2048), w01 (ix2 k q2) = Wc (ix2 k (lo q2)))
    (hu01 : ∀ (k : Fin 1024) (q2 : Fin 2048), u01 (ix2 k q2) = Uc (ix2 k (lo q2)))
    (hb01 : ∀ q2 : Fin 2048, b01 (ix2 (0 : Fin 1) q2) = Bc (ix1 (lo q2))) (p : Fin 256) (q2 : Fin 2048) :
    k0_pay6 (F := Ideal) x0 h0 wm um bmB w01 u01 b01 (ix2 p q2) = Cert.Cell.gate (Cert.Cell.mixed (fun j => x0 (ix2 p j)) (fun j => h0 (ix2 p j)) Wm Um Bm) (fun j => h0 (ix2 p j)) Wc Uc Bc (lo q2) := by
  unfold k0_pay6 k0_pay4
  simp only [shapeCast_self]
  refine (half_gates_apply _ _ _ _ _ _ p q2).trans ?_
  unfold Cert.Cell.gate
  simp only [mixed_apply x0 h0 wm um bmB Wm Um Bm hwm hum hbm, hw01, hu01, hb01]

/-- The right half (output gate and candidate) likewise, at the right half's columns. -/
theorem gates_hi_apply (x0 : Vec Ideal S256x1024 .f32) (h0 : Vec Ideal S256x1024 .bf16) (wm um : Vec Ideal S1024x1024 .bf16)
    (bmB : Vec Ideal S1x1024 .f32) (w23 u23 : Vec Ideal S1024x2048 .bf16) (b23 : Vec Ideal S1x2048 .f32)
    (Wm Um : Cert.Cell.Sq.Idx → EReal) (Bm : Cert.Cell.Len1.Idx → EReal) (Wc Uc : Cert.Cell.Wide.Idx → EReal) (Bc : Cert.Cell.Len4.Idx → EReal)
    (hwm : ∀ (j k : Fin 1024), wm (ix2 j k) = Wm (ix2 j k)) (hum : ∀ (j k : Fin 1024), um (ix2 j k) = Um (ix2 j k))
    (hbm : ∀ k : Fin 1024, bmB (ix2 (0 : Fin 1) k) = Bm (ix1 k))
    (hw23 : ∀ (k : Fin 1024) (q2 : Fin 2048), w23 (ix2 k q2) = Wc (ix2 k (hi q2)))
    (hu23 : ∀ (k : Fin 1024) (q2 : Fin 2048), u23 (ix2 k q2) = Uc (ix2 k (hi q2)))
    (hb23 : ∀ q2 : Fin 2048, b23 (ix2 (0 : Fin 1) q2) = Bc (ix1 (hi q2))) (p : Fin 256) (q2 : Fin 2048) :
    k0_pay1 (F := Ideal) (k0_pay4 h0) (k0_pay5 x0 h0 wm um bmB) (k0_pay9 w23) u23 b23 (ix2 p q2) = Cert.Cell.gate (Cert.Cell.mixed (fun j => x0 (ix2 p j)) (fun j => h0 (ix2 p j)) Wm Um Bm) (fun j => h0 (ix2 p j)) Wc Uc Bc (hi q2) := by
  unfold k0_pay1 k0_pay4 k0_pay9
  simp only [shapeCast_self]
  refine (half_gates_apply _ _ _ _ _ _ p q2).trans ?_
  unfold Cert.Cell.gate
  simp only [mixed_apply x0 h0 wm um bmB Wm Um Bm hwm hum hbm, hw23, hu23, hb23]

/-- The left 1024 columns of a [256,2048] array, entry by entry … -/
theorem slice_left_apply (g : FVec Ideal S256x2048 .f32) (hs : S256x2048.Slices ![0, 0] S256x1024) (p : Fin 256) (q : Fin 1024) :
    extractStridedSlice S256x1024 ![0, 0] g hs (ix2 p q) = g (ix2 p (⟨q.val, by have := q.isLt; omega⟩ : Fin 2048)) := by
  refine extractStridedSlice_apply ![0, 0] g hs (ix2 p q) (ix2 p (⟨q.val, by have := q.isLt; omega⟩ : Fin 2048)) fun a => ?_
  match a with
  | ⟨0, _⟩ => show p.val = 0 + p.val; omega
  | ⟨1, _⟩ => show q.val = 0 + q.val; omega
/-- … and the right 1024 columns. -/
theorem slice_right_apply (g : FVec Ideal S256x2048 .f32) (hs : S256x2048.Slices ![0, 1024] S256x1024) (p : Fin 256) (q : Fin 1024) :
    extractStridedSlice S256x1024 ![0, 1024] g hs (ix2 p q) = g (ix2 p (⟨1024 + q.val, by have := q.isLt; omega⟩ : Fin 2048)) := by
  refine extractStridedSlice_apply ![0, 1024] g hs (ix2 p q) (ix2 p (⟨1024 + q.val, by have := q.isLt; omega⟩ : Fin 2048)) fun a => ?_
  match a with
  | ⟨0, _⟩ => show p.val = 0 + p.val; omega
  | ⟨1, _⟩ => show 1024 + q.val = 1024 + q.val; rfl

/-- The logistic function and the hyperbolic tangent of an array, entry by entry. -/
theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

/-- The four gates' columns: unit `q` of the input and forget gates sits in the left half, of the output gate and the
    candidate in the right half. -/
theorem col_input (q : Fin 1024) : lo (⟨q.val, by have := q.isLt; omega⟩ : Fin 2048) = Cert.Cell.col 0 (by omega) q :=
  Fin.ext (by show q.val = 0 + q.val; omega)
theorem col_forget (q : Fin 1024) : lo (⟨1024 + q.val, by have := q.isLt; omega⟩ : Fin 2048) = Cert.Cell.col 1024 (by omega) q :=
  Fin.ext rfl
theorem col_output (q : Fin 1024) : hi (⟨q.val, by have := q.isLt; omega⟩ : Fin 2048) = Cert.Cell.col 2048 (by omega) q :=
  Fin.ext rfl
theorem col_candidate (q : Fin 1024) : hi (⟨1024 + q.val, by have := q.isLt; omega⟩ : Fin 2048) = Cert.Cell.col 3072 (by omega) q :=
  Fin.ext (by show 2048 + (1024 + q.val) = 3072 + q.val; omega)

/-- What one block of the body stores as the new cell state is the specification's new cell entry, entry by entry. -/
theorem body_cell (x0 : Vec Ideal S256x1024 .f32) (h0 : Vec Ideal S256x1024 .bf16) (c0 : Vec Ideal S256x1024 .f32)
    (wm um : Vec Ideal S1024x1024 .bf16) (bmB : Vec Ideal S1x1024 .f32)
    (w01 u01 : Vec Ideal S1024x2048 .bf16) (b01 : Vec Ideal S1x2048 .f32)
    (w23 u23 : Vec Ideal S1024x2048 .bf16) (b23 : Vec Ideal S1x2048 .f32)
    (Wm Um : Cert.Cell.Sq.Idx → EReal) (Bm : Cert.Cell.Len1.Idx → EReal) (Wc Uc : Cert.Cell.Wide.Idx → EReal) (Bc : Cert.Cell.Len4.Idx → EReal)
    (hwm : ∀ (j k : Fin 1024), wm (ix2 j k) = Wm (ix2 j k)) (hum : ∀ (j k : Fin 1024), um (ix2 j k) = Um (ix2 j k))
    (hbm : ∀ k : Fin 1024, bmB (ix2 (0 : Fin 1) k) = Bm (ix1 k))
    (hw01 : ∀ (k : Fin 1024) (q2 : Fin 2048), w01 (ix2 k q2) = Wc (ix2 k (lo q2)))
    (hw23 : ∀ (k : Fin 1024) (q2 : Fin 2048), w23 (ix2 k q2) = Wc (ix2 k (hi q2)))
    (hu01 : ∀ (k : Fin 1024) (q2 : Fin 2048), u01 (ix2 k q2) = Uc (ix2 k (lo q2)))
    (hu23 : ∀ (k : Fin 1024) (q2 : Fin 2048), u23 (ix2 k q2) = Uc (ix2 k (hi q2)))
    (hb01 : ∀ q2 : Fin 2048, b01 (ix2 (0 : Fin 1) q2) = Bc (ix1 (lo q2)))
    (hb23 : ∀ q2 : Fin 2048, b23 (ix2 (0 : Fin 1) q2) = Bc (ix1 (hi q2)))
    (p : Fin 256) (q : Fin 1024) :
    k0_pay2 (F := Ideal) (k0_pay4 h0) c0 (k0_pay5 x0 h0 wm um bmB) (k0_pay7 x0 h0 wm um bmB w01 u01 b01)
        (k0_pay8 x0 h0 wm um bmB w01 u01 b01) (k0_pay9 w23) u23 b23 (ix2 p q)
      = Cert.Cell.newC (fun k => x0 (ix2 p k)) (fun k => h0 (ix2 p k)) (c0 (ix2 p q)) Wm Um Bm Wc Uc Bc q := by
  unfold k0_pay2 k0_pay7 k0_pay8
  simp only [addf_apply, mulf_apply, logistic_apply, tanh_apply, slice_left_apply, slice_right_apply,
    gates_lo_apply x0 h0 wm um bmB w01 u01 b01 Wm Um Bm Wc Uc Bc hwm hum hbm hw01 hu01 hb01,
    gates_hi_apply x0 h0 wm um bmB w23 u23 b23 Wm Um Bm Wc Uc Bc hwm hum hbm hw23 hu23 hb23,
    col_input, col_forget, col_candidate]
  rfl

/-- What it stores as the new hidden state is the specification's new hidden entry. -/
theorem body_hidden (x0 : Vec Ideal S256x1024 .f32) (h0 : Vec Ideal S256x1024 .bf16) (c0 : Vec Ideal S256x1024 .f32)
    (wm um : Vec Ideal S1024x1024 .bf16) (bmB : Vec Ideal S1x1024 .f32)
    (w01 u01 : Vec Ideal S1024x2048 .bf16) (b01 : Vec Ideal S1x2048 .f32)
    (w23 u23 : Vec Ideal S1024x2048 .bf16) (b23 : Vec Ideal S1x2048 .f32)
    (Wm Um : Cert.Cell.Sq.Idx → EReal) (Bm : Cert.Cell.Len1.Idx → EReal) (Wc Uc : Cert.Cell.Wide.Idx → EReal) (Bc : Cert.Cell.Len4.Idx → EReal)
    (hwm : ∀ (j k : Fin 1024), wm (ix2 j k) = Wm (ix2 j k)) (hum : ∀ (j k : Fin 1024), um (ix2 j k) = Um (ix2 j k))
    (hbm : ∀ k : Fin 1024, bmB (ix2 (0 : Fin 1) k) = Bm (ix1 k))
    (hw01 : ∀ (k : Fin 1024) (q2 : Fin 2048), w01 (ix2 k q2) = Wc (ix2 k (lo q2)))
    (hw23 : ∀ (k : Fin 1024) (q2 : Fin 2048), w23 (ix2 k q2) = Wc (ix2 k (hi q2)))
    (hu01 : ∀ (k : Fin 1024) (q2 : Fin 2048), u01 (ix2 k q2) = Uc (ix2 k (lo q2)))
    (hu23 : ∀ (k : Fin 1024) (q2 : Fin 2048), u23 (ix2 k q2) = Uc (ix2 k (hi q2)))
    (hb01 : ∀ q2 : Fin 2048, b01 (ix2 (0 : Fin 1) q2) = Bc (ix1 (lo q2)))
    (hb23 : ∀ q2 : Fin 2048, b23 (ix2 (0 : Fin 1) q2) = Bc (ix1 (hi q2)))
    (p : Fin 256) (q : Fin 1024) :
    k0_pay3 (F := Ideal) (k0_pay4 h0) c0 (k0_pay5 x0 h0 wm um bmB) (k0_pay7 x0 h0 wm um bmB w01 u01 b01)
        (k0_pay8 x0 h0 wm um bmB w01 u01 b01) (k0_pay9 w23) u23 b23 (ix2 p q)
      = Cert.Cell.newH (fun k => x0 (ix2 p k)) (fun k => h0 (ix2 p k)) (c0 (ix2 p q)) Wm Um Bm Wc Uc Bc q := by
  unfold k0_pay3
  simp only [mulf_apply, logistic_apply, tanh_apply, slice_left_apply,
    gates_hi_apply x0 h0 wm um bmB w23 u23 b23 Wm Um Bm Wc Uc Bc hwm hum hbm hw23 hu23 hb23,
    body_cell x0 h0 c0 wm um bmB w01 u01 b01 w23 u23 b23 Wm Um Bm Wc Uc Bc hwm hum hbm hw01 hw23 hu01 hu23 hb01 hb23,
    col_output]
  rfl

end Cert.BodyCell

end
-- ==== Proof.IdealValue.lean ====
/-
  The kernel's two result arrays as functions of the arguments.

  At every grid point the body's new hidden block and new cell block are, entry by entry, the cell of the specification
  applied to that point's rows: the blocks are restrictions of one whole-array function each. The thirty-two row blocks
  tile the batch axis, so after the run the two result arrays ARE the specification's hidden array and cell array of the
  argument arrays, with the gates' weights and biases joined as the host joins them.
-/
import proofs.«111014_j13288628814422_2_alg».proof.Proof.IdealRegion
import proofs.«111014_j13288628814422_2_alg».proof.Proof.IdealBlocks
import proofs.«111014_j13288628814422_2_alg».proof.Proof.BodyCell

set_option maxRecDepth 16384

noncomputable section

namespace Cert.KernelIdeal.Final

open Cert.KernelIdeal Cert.KernelIdeal.Gen Cert.KernelIdeal.Region
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification's new hidden state and new cell state of the argument arrays on core `c`. -/
abbrev hiddenSpec (c : Dev nD) : S8192x1024.Idx → EReal :=
  Cert.Cell.hiddenArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (joinedW m c) (joinedU m c) (joinedB m c)
abbrev cellSpec (c : Dev nD) : S8192x1024.Idx → EReal :=
  Cert.Cell.cellArray (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (joinedW m c) (joinedU m c) (joinedB m c)

theorem no_offset : (![0, 0] : Fin 2 → Nat) = fun _ => 0 := funext fun a => by fin_cases a <;> rfl

/-! ## One entry of what a grid point writes back -/

/-- Entry `(p, q)` of the hidden block point `t` stores is the specification's new hidden entry of batch row `256·t + p`. -/
theorem hidden_entry (c : Dev nD) (t : Fin cfg0.N) (p : Fin 256) (q : Fin 1024) :
    hiddenAt m c t (ix2 p q) = hiddenSpec m c (ix2 (rowOf t p) q) := by
  unfold hiddenAt hiddenOut
  rw [View.canon_unit_zero no_offset]
  simp only [View.ld_unit_zero (S := S256x1024) no_offset, View.ld_unit_zero (S := S1024x1024) no_offset, View.ld_unit_zero (S := S1x1024) no_offset]
  refine (Cert.BodyCell.body_hidden (blockAt m c 0 t) (blockAt m c 1 t) (blockAt m c 2 t) (blockAt m c 3 t) (blockAt m c 4 t) (blockAt m c 5 t)
    (View.ld (blockAt m c 6 t) rLeft) (View.ld (blockAt m c 7 t) rLeft) (View.ld (blockAt m c 8 t) rBiasLeft)
    (View.ld (blockAt m c 6 t) rRight) (View.ld (blockAt m c 7 t) rRight) (View.ld (blockAt m c 8 t) rBiasRight)
    (m ((c : Thread nD τ).loc main_arg3)) (m ((c : Thread nD τ).loc main_arg4)) (m ((c : Thread nD τ).loc main_arg5))
    (joinedW m c) (joinedU m c) (joinedB m c)
    (Wm_block m c t) (Um_block m c t) (bm_block m c t) (W_left m c t) (W_right m c t) (U_left m c t) (U_right m c t) (b_left m c t) (b_right m c t) p q).trans ?_
  have ex : (fun k => blockAt m c 0 t (ix2 p k)) = Cert.Cell.row (m ((c : Thread nD τ).loc main_arg0)) (rowOf t p) := funext fun k => x_block m c t p k
  have eh : (fun k => blockAt m c 1 t (ix2 p k)) = Cert.Cell.row (m ((c : Thread nD τ).loc main_arg1)) (rowOf t p) := funext fun k => h_block m c t p k
  rw [ex, eh, c_block m c t p q]
  rfl

/-- The same for the cell block. -/
theorem cell_entry (c : Dev nD) (t : Fin cfg0.N) (p : Fin 256) (q : Fin 1024) :
    cellAt m c t (ix2 p q) = cellSpec m c (ix2 (rowOf t p) q) := by
  unfold cellAt cellOut
  rw [View.canon_unit_zero no_offset]
  simp only [View.ld_unit_zero (S := S256x1024) no_offset, View.ld_unit_zero (S := S1024x1024) no_offset, View.ld_unit_zero (S := S1x1024) no_offset]
  refine (Cert.BodyCell.body_cell (blockAt m c 0 t) (blockAt m c 1 t) (blockAt m c 2 t) (blockAt m c 3 t) (blockAt m c 4 t) (blockAt m c 5 t)
    (View.ld (blockAt m c 6 t) rLeft) (View.ld (blockAt m c 7 t) rLeft) (View.ld (blockAt m c 8 t) rBiasLeft)
    (View.ld (blockAt m c 6 t) rRight) (View.ld (blockAt m c 7 t) rRight) (View.ld (blockAt m c 8 t) rBiasRight)
    (m ((c : Thread nD τ).loc main_arg3)) (m ((c : Thread nD τ).loc main_arg4)) (m ((c : Thread nD τ).loc main_arg5))
    (joinedW m c) (joinedU m c) (joinedB m c)
    (Wm_block m c t) (Um_block m c t) (bm_block m c t) (W_left m c t) (W_right m c t) (U_left m c t) (U_right m c t) (b_left m c t) (b_right m c t) p q).trans ?_
  have ex : (fun k => blockAt m c 0 t (ix2 p k)) = Cert.Cell.row (m ((c : Thread nD τ).loc main_arg0)) (rowOf t p) := funext fun k => x_block m c t p k
  have eh : (fun k => blockAt m c 1 t (ix2 p k)) = Cert.Cell.row (m ((c : Thread nD τ).loc main_arg1)) (rowOf t p) := funext fun k => h_block m c t p k
  rw [ex, eh, c_block m c t p q]
  rfl

/-! ## From blocks to the arrays -/

/-- Where entry `(p, q)` of an output block of point `t` lands in the result array. -/
theorem hidden_lands (t : Fin cfg0.N) (p : Fin 256) (q : Fin 1024) :
    ((cfg0.win 9).blk t).view.emb (ix2 p q) = ix2 (rowOf t p) q := by
  obtain ⟨-, -, -, -, -, -, -, -, -, -, -, -, -, -, -, -, -, -, e0, e1, -⟩ := idx_facts t
  funext a; apply Fin.ext
  match a with
  | ⟨0, _⟩ => show win0_9.index t (0 : Fin 2) * 256 + 1 * p.val = 256 * t.val + p.val; omega
  | ⟨1, _⟩ => show win0_9.index t (1 : Fin 2) * 1024 + 1 * q.val = q.val; omega
theorem cell_lands (t : Fin cfg0.N) (p : Fin 256) (q : Fin 1024) :
    ((cfg0.win 10).blk t).view.emb (ix2 p q) = ix2 (rowOf t p) q := by
  obtain ⟨-, -, -, -, -, -, -, -, -, -, -, -, -, -, -, -, -, -, -, -, e0, e1⟩ := idx_facts t
  funext a; apply Fin.ext
  match a with
  | ⟨0, _⟩ => show win0_10.index t (0 : Fin 2) * 256 + 1 * p.val = 256 * t.val + p.val; omega
  | ⟨1, _⟩ => show win0_10.index t (1 : Fin 2) * 1024 + 1 * q.val = q.val; omega

/-- What point `t` writes back to the first result is block `t` of the specification's hidden array … -/
theorem hidden_flushed (c : Dev nD) (t : Fin cfg0.N) :
    (data m 0 c).flushed 9 t = ((cfg0.win 9).blk t).view.read (Elt Ideal) (hiddenSpec m c) := by
  show (cfg0.win 9).cut (grid0.coords t) ((data m 0 c).after 9 t) = _
  rw [after9]
  funext j
  show hiddenAt m c t j = hiddenSpec m c (((cfg0.win 9).blk t).view.emb j)
  obtain ⟨p, q, rfl⟩ : ∃ (p : Fin 256) (q : Fin 1024), j = ix2 p q := ⟨j 0, j 1, eq_ix2 j⟩
  rw [hidden_lands]
  exact hidden_entry m c t p q
/-- … and to the second result block `t` of its cell array. -/
theorem cell_flushed (c : Dev nD) (t : Fin cfg0.N) :
    (data m 0 c).flushed 10 t = ((cfg0.win 10).blk t).view.read (Elt Ideal) (cellSpec m c) := by
  show (cfg0.win 10).cut (grid0.coords t) ((data m 0 c).after 10 t) = _
  rw [after10]
  funext j
  show cellAt m c t j = cellSpec m c (((cfg0.win 10).blk t).view.emb j)
  obtain ⟨p, q, rfl⟩ : ∃ (p : Fin 256) (q : Fin 1024), j = ix2 p q := ⟨j 0, j 1, eq_ix2 j⟩
  rw [cell_lands]
  exact cell_entry m c t p q

/-- An index is in point `t`'s output block iff each coordinate is in the block's range on its axis. -/
theorem mem_hidden_block (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v10_0).slice (win0_9.rect t)).set ↔ _
  rw [View.set_slice_whole, Rect.mem_set_unit]
  exact Iff.rfl
theorem mem_cell_block (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v10_1).slice (win0_10.rect t)).set ↔ _
  rw [View.set_slice_whole, Rect.mem_set_unit]
  exact Iff.rfl

/-- Row `r` of a result array is written by grid point `r / 256`: the blocks cover the array. -/
theorem hidden_covered (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 256 < cfg0.N := by show _ < grid0.N; rw [N_0]; omega
  refine ⟨⟨(i 0).val / 256, hN⟩, flush0_9 _, ?_⟩
  rw [mem_hidden_block]
  obtain ⟨-, -, -, -, -, -, -, -, -, -, -, -, -, -, -, -, -, -, e0, e1, -⟩ := idx_facts ⟨(i 0).val / 256, hN⟩
  intro a
  match a with
  | ⟨0, _⟩ => show win0_9.index ⟨(i 0).val / 256, hN⟩ (0 : Fin 2) * 256 ≤ (i 0).val ∧ (i 0).val < win0_9.index ⟨(i 0).val / 256, hN⟩ (0 : Fin 2) * 256 + 256; rw [e0]; show (i 0).val / 256 * 256 ≤ (i 0).val ∧ (i 0).val < (i 0).val / 256 * 256 + 256; omega
  | ⟨1, _⟩ => show win0_9.index ⟨(i 0).val / 256, hN⟩ (1 : Fin 2) * 1024 ≤ (i 1).val ∧ (i 1).val < win0_9.index ⟨(i 0).val / 256, hN⟩ (1 : Fin 2) * 1024 + 1024; rw [e1]; omega
theorem cell_covered (i : S8192x1024.Idx) : ∃ t : Fin cfg0.N, (cfg0.win 10).flush t = true ∧ i ∈ ((cfg0.win 10).blk t).view.set := by
  have hi0 : (i 0).val < 8192 := (i 0).isLt
  have hi1 : (i 1).val < 1024 := (i 1).isLt
  have hN : (i 0).val / 256 < cfg0.N := by show _ < grid0.N; rw [N_0]; omega
  refine ⟨⟨(i 0).val / 256, hN⟩, flush0_10 _, ?_⟩
  rw [mem_cell_block]
  obtain ⟨-, -, -, -, -, -, -, -, -, -, -, -, -, -, -, -, -, -, -, -, e0, e1⟩ := idx_facts ⟨(i 0).val / 256, hN⟩
  intro a
  match a with
  | ⟨0, _⟩ => show win0_10.index ⟨(i 0).val / 256, hN⟩ (0 : Fin 2) * 256 ≤ (i 0).val ∧ (i 0).val < win0_10.index ⟨(i 0).val / 256, hN⟩ (0 : Fin 2) * 256 + 256; rw [e0]; show (i 0).val / 256 * 256 ≤ (i 0).val ∧ (i 0).val < (i 0).val / 256 * 256 + 256; omega
  | ⟨1, _⟩ => show win0_10.index ⟨(i 0).val / 256, hN⟩ (1 : Fin 2) * 1024 ≤ (i 1).val ∧ (i 1).val < win0_10.index ⟨(i 0).val / 256, hN⟩ (1 : Fin 2) * 1024 + 1024; rw [e1]; omega

/-- The two result arrays after the run. -/
theorem hidden_final (c : Dev nD) : (data m 0 c).arrAt 9 cfg0.N = hiddenSpec m c :=
  (data m 0 c).arrAt_eq_of_cover 9 (hiddenSpec m c) (fun t _ => hidden_flushed m c t) hidden_covered
theorem cell_final (c : Dev nD) : (data m 0 c).arrAt 10 cfg0.N = cellSpec m c :=
  (data m 0 c).arrAt_eq_of_cover 10 (cellSpec m c) (fun t _ => cell_flushed m c t) cell_covered

/-! ## The run, with the results named -/

/-- Every weakly fair execution terminates without a fault; the first result ends at the specification's hidden array
    of the arguments, the second at its cell array, and the eighteen arguments are unchanged. -/
theorem run_spec : θ_run defs (onTc (τ := τ) (main (F := Ideal))) ⟨m, fun _ => 0, ρ⟩ (fun r => ∀ c : Dev nD,
      r.2.mem ((c.tc : Thread nD τ).loc main_v10_0) = hiddenSpec m c
      ∧ r.2.mem ((c.tc : Thread nD τ).loc main_v10_1) = cellSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 9).trans (hidden_final m c), ((h c).1 10).trans (cell_final m c),
      ((h c).1 0).trans (((data m 0 c).arrAt_in 0 rfl _).trans ((data_A m c 0).trans (entry_arg0 m c))),
      ((h c).2 main_arg1 (Pipeline.mem_restRefs_of main_arg1 (by decide) (by decide))).trans (entry_arg1 m c),
      ((h c).1 2).trans (((data m 0 c).arrAt_in 2 rfl _).trans ((data_A m c 2).trans (entry_arg2 m c))),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c)⟩)
    (run_region m ρ)

end Cert.KernelIdeal.Final

end
-- ==== Proof.RefCell.lean ====
/-
  The reference program computes the multiplicative LSTM cell of `Cert.Cell`, entry by entry.

  Reading the reference one operation at a time at batch row `r`:
    * the two square products, their sum with the broadcast bias, and the product with the input give the
      transformed input row `x̃ = (x·Wm + h·Um + bm) ⊙ x`  (`mixed_at`);
    * the two wide products against the joined weights, their sum and the broadcast joined bias give the
      4096 gate pre-activations `x̃·Wc + h·Uc + bc`  (`gate_at`);
    * the four column slices read those at columns `off + q`, `off = 0, 1024, 2048, 3072`;
    * `1 / (1 + exp (-z))` with the constant one is the logistic function (`sig_input`, `sig_forget`,
      `sig_output`), and the fourth slice goes through `tanh` (`tanh_cand`);
    * `σ(f)·c + σ(i)·tanh(c̃)` is the new cell entry (`cell_at`, `ref_cell`) and `σ(o)·tanh(c')` the new hidden
      entry (`ref_hidden`).
  The joined weight and bias arrays are never opened: they are carried as they stand into the specification.
-/
import proofs.«111014_j13288628814422_2_alg».proof.Proof.Gen.ReferenceIdeal.Read
import proofs.«111014_j13288628814422_2_alg».proof.Proof.CellSpec
import Idealize.ShloMosaic.Lib.IdealHost

noncomputable section

open scoped BigOperators

namespace Cert.RefCell

open Cert.ReferenceIdeal Cert.ReferenceIdeal.Read Idealize.ShloMosaic Idealize.ShloMosaic.ValueIdx Cert.Cell

/-- The batch arrays, the square weight matrices and the bias vectors, as functions of an index into the extended reals. -/
abbrev Batch : Type := S8192x1024.Idx → EReal
abbrev Square : Type := S1024x1024.Idx → EReal
abbrev Bias : Type := S1024.Idx → EReal

theorem lidx0 (r : Fin 8192) (k j : Fin 1024) : lidx_main_v0 (ix2 r k) j = ix2 r j :=
  funext fun a => Fin.ext (by match a with | ⟨0, _⟩ => rfl | ⟨1, _⟩ => rfl)
theorem ridx0 (r : Fin 8192) (k j : Fin 1024) : ridx_main_v0 (ix2 r k) j = ix2 j k :=
  funext fun a => Fin.ext (by match a with | ⟨0, _⟩ => rfl | ⟨1, _⟩ => rfl)
theorem lidx1 (r : Fin 8192) (k j : Fin 1024) : lidx_main_v1 (ix2 r k) j = ix2 r j :=
  funext fun a => Fin.ext (by match a with | ⟨0, _⟩ => rfl | ⟨1, _⟩ => rfl)
theorem ridx1 (r : Fin 8192) (k j : Fin 1024) : ridx_main_v1 (ix2 r k) j = ix2 j k :=
  funext fun a => Fin.ext (by match a with | ⟨0, _⟩ => rfl | ⟨1, _⟩ => rfl)
theorem idx34 (r : Fin 8192) (k : Fin 1024) : idx_main_v3 (idx_main_v4 (ix2 r k)) = ix1 k :=
  funext fun a => Fin.ext (by match a with | ⟨0, _⟩ => rfl)

theorem mixed_at (x0 x1 : Batch) (x3 x4 : Square) (x5 : Bias) (r : Fin 8192) (k : Fin 1024) :
    val_main_v6 (F := Ideal) x0 x1 x3 x4 x5 (ix2 r k) = mixed (row x0 r) (row x1 r) x3 x4 x5 k := by
  rw [val_main_v6_apply, val_main_v5_apply, val_main_v2_apply, val_main_v0_apply, val_main_v1_apply,
    val_main_v4_apply, val_main_v3_apply]
  simp only [Ideal.addf_def, Ideal.mulf_def, lidx0, ridx0, lidx1, ridx1, idx34]
  rfl

theorem lidx10 (r : Fin 8192) (q' : Fin 4096) (k : Fin 1024) : lidx_main_v10 (ix2 r q') k = ix2 r k :=
  funext fun a => Fin.ext (by match a with | ⟨0, _⟩ => rfl | ⟨1, _⟩ => rfl)
theorem ridx10 (r : Fin 8192) (q' : Fin 4096) (k : Fin 1024) : ridx_main_v10 (ix2 r q') k = ix2 k q' :=
  funext fun a => Fin.ext (by match a with | ⟨0, _⟩ => rfl | ⟨1, _⟩ => rfl)
theorem lidx11 (r : Fin 8192) (q' : Fin 4096) (k : Fin 1024) : lidx_main_v11 (ix2 r q') k = ix2 r k :=
  funext fun a => Fin.ext (by match a with | ⟨0, _⟩ => rfl | ⟨1, _⟩ => rfl)
theorem ridx11 (r : Fin 8192) (q' : Fin 4096) (k : Fin 1024) : ridx_main_v11 (ix2 r q') k = ix2 k q' :=
  funext fun a => Fin.ext (by match a with | ⟨0, _⟩ => rfl | ⟨1, _⟩ => rfl)
theorem idx1314 (r : Fin 8192) (q' : Fin 4096) : idx_main_v13 (idx_main_v14 (ix2 r q')) = ix1 q' :=
  funext fun a => Fin.ext (by match a with | ⟨0, _⟩ => rfl)

theorem gate_at (x0 x1 : Batch) (x3 x4 : Square) (x5 : Bias) (x6 x7 : Square) (x8 : Bias) (x9 x10 : Square) (x11 : Bias) (x12 x13 : Square) (x14 : Bias) (x15 x16 : Square) (x17 : Bias) (r : Fin 8192) (q' : Fin 4096) :
    val_main_v15 (F := Ideal) x0 x1 x3 x4 x5 x6 x7 x8 x9 x10 x11 x12 x13 x14 x15 x16 x17 (ix2 r q') = gate (mixed (row x0 r) (row x1 r) x3 x4 x5) (row x1 r) (val_main_v7 (F := Ideal) x6 x9 x12 x15) (val_main_v8 (F := Ideal) x7 x10 x13 x16) (val_main_v9 (F := Ideal) x8 x11 x14 x17) q' := by
  rw [val_main_v15_apply, val_main_v12_apply, val_main_v10_apply, val_main_v11_apply, val_main_v14_apply,
    val_main_v13_apply]
  generalize val_main_v7 (F := Ideal) x6 x9 x12 x15 = Wc
  generalize val_main_v8 (F := Ideal) x7 x10 x13 x16 = Uc
  generalize val_main_v9 (F := Ideal) x8 x11 x14 x17 = bc
  simp only [Ideal.addf_def, lidx10, ridx10, lidx11, ridx11, idx1314, mixed_at]
  rfl

/-- Each of the six broadcast constants is the extended real one. -/
theorem one19 (i : S8192x1024.Idx) : val_main_v19 (F := Ideal) i = 1 := by
  rw [val_main_v19_apply, val_main_cst_apply, Ideal.ofBits_def, Ideal.ofBits_one_f32]
theorem one21 (i : S8192x1024.Idx) : val_main_v21 (F := Ideal) i = 1 := by
  rw [val_main_v21_apply, val_main_cst_0_apply, Ideal.ofBits_def, Ideal.ofBits_one_f32]
theorem one26 (i : S8192x1024.Idx) : val_main_v26 (F := Ideal) i = 1 := by
  rw [val_main_v26_apply, val_main_cst_1_apply, Ideal.ofBits_def, Ideal.ofBits_one_f32]
theorem one28 (i : S8192x1024.Idx) : val_main_v28 (F := Ideal) i = 1 := by
  rw [val_main_v28_apply, val_main_cst_2_apply, Ideal.ofBits_def, Ideal.ofBits_one_f32]
theorem one33 (i : S8192x1024.Idx) : val_main_v33 (F := Ideal) i = 1 := by
  rw [val_main_v33_apply, val_main_cst_3_apply, Ideal.ofBits_def, Ideal.ofBits_one_f32]
theorem one35 (i : S8192x1024.Idx) : val_main_v35 (F := Ideal) i = 1 := by
  rw [val_main_v35_apply, val_main_cst_4_apply, Ideal.ofBits_def, Ideal.ofBits_one_f32]

/-- The four column slices read the gates at columns `off + q`. -/
theorem idx16 (r : Fin 8192) (q : Fin 1024) : idx_main_v16 (ix2 r q) = ix2 r (col 0 (by omega) q) :=
  funext fun a => Fin.ext (by
    match a with
    | ⟨0, _⟩ => rfl
    | ⟨1, _⟩ => show q.val = 0 + q.val; omega)
theorem idx23 (r : Fin 8192) (q : Fin 1024) : idx_main_v23 (ix2 r q) = ix2 r (col 1024 (by omega) q) :=
  funext fun a => Fin.ext (by
    match a with
    | ⟨0, _⟩ => rfl
    | ⟨1, _⟩ => show 1024 + q.val = 1024 + q.val; omega)
theorem idx30 (r : Fin 8192) (q : Fin 1024) : idx_main_v30 (ix2 r q) = ix2 r (col 2048 (by omega) q) :=
  funext fun a => Fin.ext (by
    match a with
    | ⟨0, _⟩ => rfl
    | ⟨1, _⟩ => show 2048 + q.val = 2048 + q.val; omega)
theorem idx37 (r : Fin 8192) (q : Fin 1024) : idx_main_v37 (ix2 r q) = ix2 r (col 3072 (by omega) q) :=
  funext fun a => Fin.ext (by
    match a with
    | ⟨0, _⟩ => rfl
    | ⟨1, _⟩ => show 3072 + q.val = 3072 + q.val; omega)

/-- The reference spells the logistic function out as `1 / (1 + exp (-z))`, which is how `Ideal.logistic` is defined. -/
theorem sig_input (x0 x1 : Batch) (x3 x4 : Square) (x5 : Bias) (x6 x7 : Square) (x8 : Bias) (x9 x10 : Square) (x11 : Bias) (x12 x13 : Square) (x14 : Bias) (x15 x16 : Square) (x17 : Bias) (r : Fin 8192) (q : Fin 1024) :
    val_main_v22 (F := Ideal) x0 x1 x3 x4 x5 x6 x7 x8 x9 x10 x11 x12 x13 x14 x15 x16 x17 (ix2 r q) = Ideal.logistic (gate (mixed (row x0 r) (row x1 r) x3 x4 x5) (row x1 r) (val_main_v7 (F := Ideal) x6 x9 x12 x15) (val_main_v8 (F := Ideal) x7 x10 x13 x16) (val_main_v9 (F := Ideal) x8 x11 x14 x17) (col 0 (by omega) q)) := by
  rw [val_main_v22_apply, one21, val_main_v20_apply, one19, val_main_v18_apply, val_main_v17_apply,
    val_main_v16_apply, idx16, gate_at]
  rfl
theorem sig_forget (x0 x1 : Batch) (x3 x4 : Square) (x5 : Bias) (x6 x7 : Square) (x8 : Bias) (x9 x10 : Square) (x11 : Bias) (x12 x13 : Square) (x14 : Bias) (x15 x16 : Square) (x17 : Bias) (r : Fin 8192) (q : Fin 1024) :
    val_main_v29 (F := Ideal) x0 x1 x3 x4 x5 x6 x7 x8 x9 x10 x11 x12 x13 x14 x15 x16 x17 (ix2 r q) = Ideal.logistic (gate (mixed (row x0 r) (row x1 r) x3 x4 x5) (row x1 r) (val_main_v7 (F := Ideal) x6 x9 x12 x15) (val_main_v8 (F := Ideal) x7 x10 x13 x16) (val_main_v9 (F := Ideal) x8 x11 x14 x17) (col 1024 (by omega) q)) := by
  rw [val_main_v29_apply, one28, val_main_v27_apply, one26, val_main_v25_apply, val_main_v24_apply,
    val_main_v23_apply, idx23, gate_at]
  rfl
theorem sig_output (x0 x1 : Batch) (x3 x4 : Square) (x5 : Bias) (x6 x7 : Square) (x8 : Bias) (x9 x10 : Square) (x11 : Bias) (x12 x13 : Square) (x14 : Bias) (x15 x16 : Square) (x17 : Bias) (r : Fin 8192) (q : Fin 1024) :
    val_main_v36 (F := Ideal) x0 x1 x3 x4 x5 x6 x7 x8 x9 x10 x11 x12 x13 x14 x15 x16 x17 (ix2 r q) = Ideal.logistic (gate (mixed (row x0 r) (row x1 r) x3 x4 x5) (row x1 r) (val_main_v7 (F := Ideal) x6 x9 x12 x15) (val_main_v8 (F := Ideal) x7 x10 x13 x16) (val_main_v9 (F := Ideal) x8 x11 x14 x17) (col 2048 (by omega) q)) := by
  rw [val_main_v36_apply, one35, val_main_v34_apply, one33, val_main_v32_apply, val_main_v31_apply,
    val_main_v30_apply, idx30, gate_at]
  rfl

theorem tanh_cand (x0 x1 : Batch) (x3 x4 : Square) (x5 : Bias) (x6 x7 : Square) (x8 : Bias) (x9 x10 : Square) (x11 : Bias) (x12 x13 : Square) (x14 : Bias) (x15 x16 : Square) (x17 : Bias) (r : Fin 8192) (q : Fin 1024) :
    val_main_v38 (F := Ideal) x0 x1 x3 x4 x5 x6 x7 x8 x9 x10 x11 x12 x13 x14 x15 x16 x17 (ix2 r q) = Ideal.tanh (gate (mixed (row x0 r) (row x1 r) x3 x4 x5) (row x1 r) (val_main_v7 (F := Ideal) x6 x9 x12 x15) (val_main_v8 (F := Ideal) x7 x10 x13 x16) (val_main_v9 (F := Ideal) x8 x11 x14 x17) (col 3072 (by omega) q)) := by
  rw [val_main_v38_apply, val_main_v37_apply, idx37, gate_at]
  rfl

theorem cell_at (x0 x1 x2 : Batch) (x3 x4 : Square) (x5 : Bias) (x6 x7 : Square) (x8 : Bias) (x9 x10 : Square) (x11 : Bias) (x12 x13 : Square) (x14 : Bias) (x15 x16 : Square) (x17 : Bias) (r : Fin 8192) (q : Fin 1024) :
    val_main_v41 (F := Ideal) x0 x1 x2 x3 x4 x5 x6 x7 x8 x9 x10 x11 x12 x13 x14 x15 x16 x17 (ix2 r q)
      = newC (row x0 r) (row x1 r) (x2 (ix2 r q)) x3 x4 x5 (val_main_v7 (F := Ideal) x6 x9 x12 x15) (val_main_v8 (F := Ideal) x7 x10 x13 x16) (val_main_v9 (F := Ideal) x8 x11 x14 x17) q := by
  rw [val_main_v41_apply, val_main_v39_apply, val_main_v40_apply, sig_forget, sig_input, tanh_cand]
  rfl

/-- The reference's second result is the new cell state. -/
theorem ref_cell (x0 x1 x2 : Batch) (x3 x4 : Square) (x5 : Bias) (x6 x7 : Square) (x8 : Bias) (x9 x10 : Square) (x11 : Bias) (x12 x13 : Square) (x14 : Bias) (x15 x16 : Square) (x17 : Bias) :
    val_main_v41 (F := Ideal) x0 x1 x2 x3 x4 x5 x6 x7 x8 x9 x10 x11 x12 x13 x14 x15 x16 x17 = cellArray x0 x1 x2 x3 x4 x5 (val_main_v7 (F := Ideal) x6 x9 x12 x15) (val_main_v8 (F := Ideal) x7 x10 x13 x16) (val_main_v9 (F := Ideal) x8 x11 x14 x17) := by
  funext i
  obtain ⟨r, q, rfl⟩ : ∃ (r : Fin 8192) (q : Fin 1024), i = ix2 r q := ⟨i 0, i 1, eq_ix2 i⟩
  exact cell_at x0 x1 x2 x3 x4 x5 x6 x7 x8 x9 x10 x11 x12 x13 x14 x15 x16 x17 r q

/-- The reference's first result is the new hidden state. -/
theorem ref_hidden (x0 x1 x2 : Batch) (x3 x4 : Square) (x5 : Bias) (x6 x7 : Square) (x8 : Bias) (x9 x10 : Square) (x11 : Bias) (x12 x13 : Square) (x14 : Bias) (x15 x16 : Square) (x17 : Bias) :
    val_main_v43 (F := Ideal) x0 x1 x2 x3 x4 x5 x6 x7 x8 x9 x10 x11 x12 x13 x14 x15 x16 x17 = hiddenArray x0 x1 x2 x3 x4 x5 (val_main_v7 (F := Ideal) x6 x9 x12 x15) (val_main_v8 (F := Ideal) x7 x10 x13 x16) (val_main_v9 (F := Ideal) x8 x11 x14 x17) := by
  funext i
  obtain ⟨r, q, rfl⟩ : ∃ (r : Fin 8192) (q : Fin 1024), i = ix2 r q := ⟨i 0, i 1, eq_ix2 i⟩
  rw [val_main_v43_apply, val_main_v42_apply, sig_output, cell_at]
  rfl

end Cert.RefCell

end
-- ==== Proof.RefRun.lean ====
/-
  The reference's run, stated with the specification.

  The reference program's run ends with each result at the composed term of its operations; that term is the last
  stage read one operation at a time, and the last stages are the new hidden state and the new cell state of
  `Cert.Cell` (`ref_hidden`, `ref_cell`). So the run ends with the first result `hiddenArray` and the second
  `cellArray` of the arguments' launch contents, the arguments unchanged (`run_spec`); dropping the two results
  leaves the frame claim (`frame_ri`).
-/
import proofs.«111014_j13288628814422_2_alg».proof.Defs
import proofs.«111014_j13288628814422_2_alg».proof.Proof.Gen.Pre_finite_inputs
import proofs.«111014_j13288628814422_2_alg».proof.Proof.RefCell

noncomputable section

namespace Cert.RefCell

open Cert.ReferenceIdeal Cert.ReferenceIdeal.Read Idealize.ShloMosaic Idealize.ShloMosaic.TcCoe Idealize.SL.Sem Cert.Cell

/-- Every weakly fair execution of the reference terminates with its first result the new hidden state and its second
    the new cell state of `Cert.Cell`, as functions of the launch contents of the arguments (the joined weights and bias
    as the program joins them), and the arguments unchanged. -/
theorem run_spec (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v43)
        = hiddenArray (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (val_main_v7 (F := Ideal) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)))
          (val_main_v8 (F := Ideal) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg16)))
          (val_main_v9 (F := Ideal) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg17)))
      ∧ r.2.mem ((c.tc : Thread Cert.ReferenceIdeal.nD Cert.ReferenceIdeal.τ).loc Cert.ReferenceIdeal.main_v41)
        = cellArray (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
          (val_main_v7 (F := Ideal) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)))
          (val_main_v8 (F := Ideal) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg16)))
          (val_main_v9 (F := Ideal) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg17)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)) :=
  (θ_run (Cert.ReferenceIdeal.defs (F := Ideal)) _ _).mono
    (fun _ h c => ⟨(h c).1.trans ((val_main_v43_eq m' c).trans (ref_hidden ..)),
      (h c).2.1.trans ((val_main_v41_eq m' c).trans (ref_cell ..)), (h c).2.2⟩)
    (Cert.ReferenceIdeal.Value.run (F := Ideal) m' ρ')

/-- The reference runs and leaves its eighteen arguments unchanged: the run above with the two results dropped. -/
theorem frame_ri : Cert.frame_ReferenceIdeal := fun m ρ _ =>
  (θ_run (Cert.ReferenceIdeal.defs (F := Ideal)) _ _).mono (fun _ h c => (h c).2.2) (Cert.ReferenceIdeal.Value.run (F := Ideal) m ρ)

end Cert.RefCell

end
-- ==== Proof.lean ====
/-
  One step of a multiplicative LSTM cell (8192 batch rows, input and hidden width 1024): a blocked kernel against its
  plain reference, equal on the extended reals.

  The kernel's host side joins the four gates' weights side by side, rounds the matmul operands to bf16 and launches one
  region of 32 grid points, each computing 256 rows of the new hidden state and of the new cell state from its rows of
  `x`, `h`, `c` and the whole weights; the reference computes the same two arrays with whole-array operations. At the ideal
  instance a change of float format is the identity, a matrix product into a zero accumulator is the plain sum of
  products, and the logistic function is `1 / (1 + e⁻ᶻ)` however it is spelt; so both programs compute, entry by entry,
  the cell of `Cert.Cell` — the same sums in the same order, no law that would need finiteness — and the
  precondition is never opened.

  * the three frames: each program runs to the end, faults nowhere and leaves its eighteen arguments unchanged — for the
    two kernel programs from the region's run (the body's triple at every grid point, the pipeline's launch), for the
    reference from its host run;
  * `preserves`: the idealized kernel is the kernel's own text read at the ideal instance (no rewrite to account for);
  * `algebraic`: the kernel's result arrays are the specification's hidden and cell arrays of the arguments
    (`Cert.KernelIdeal.Final.run_spec`), and so are the reference's (`Cert.RefCell.run_spec`); with the arguments
    agreeing the two are one term.
-/
import proofs.«111014_j13288628814422_2_alg».proof.Defs
import proofs.«111014_j13288628814422_2_alg».proof.Proof.Gen.Kernel
import proofs.«111014_j13288628814422_2_alg».proof.Proof.Gen.KernelIdeal
import proofs.«111014_j13288628814422_2_alg».proof.Proof.Gen.ReferenceIdeal
import proofs.«111014_j13288628814422_2_alg».proof.Proof.Gen.Pre_finite_inputs
import proofs.«111014_j13288628814422_2_alg».proof.Proof.BitsRegion
import proofs.«111014_j13288628814422_2_alg».proof.Proof.IdealValue
import proofs.«111014_j13288628814422_2_alg».proof.Proof.RefRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Region.args_kept m ρ

/-- So does the idealized kernel. -/
theorem frame_ideal : Cert.frame_KernelIdeal (hKernelIdeal := Cert.KernelIdeal.Gen.facts) (hPre_finite_inputs := Cert.Pre_finite_inputs.Gen.facts) :=
  fun m ρ _ => Cert.KernelIdeal.Region.args_kept m ρ

/-- From memories that agree on the eighteen arguments both idealized programs end with the specification's new
    hidden state as first result and its new cell state as second: the kernel by its region's run read block by block,
    the reference by its host run read operation by operation; the gates' joined weights are the same join on both sides. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.hiddenSpec m c, fun c => Cert.KernelIdeal.Final.cellSpec m c,
    Cert.KernelIdeal.Final.run_spec m ρ, ?_⟩
  refine (θ_run Cert.ReferenceIdeal.defs _ _).mono (fun _ h c => ⟨(h c).1.trans ?_, (h c).2.1.trans ?_, (h c).2.2⟩)
    (Cert.RefCell.run_spec m' ρ')
  · obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]
    rfl
  · obtain ⟨a0, a1, a2, a3, a4, a5, a6, a7, a8, a9, a10, a11, a12, a13, a14, a15, a16, a17⟩ := hagree c
    rw [a0, a1, a2, a3, a4, a5, a6, a7, a8, a9, a10, a11, a12, a13, a14, a15, a16, a17]
    rfl

theorem claim : Cert.Claim :=
  ⟨Cert.Kernel.Gen.facts, Cert.KernelIdeal.Gen.facts, Cert.ReferenceIdeal.Gen.facts, Cert.Pre_finite_inputs.Gen.facts,
    frame_kernel, frame_ideal, Cert.RefCell.frame_ri, trivial, algebraic⟩

end Cert.Proof

end
